-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x2 .f32) (main_arg12 : FVec F S2 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x2 .f32 := Host.absf main_arg11
  let main_cst_16 : FVec F S_ .f32 := constant S_ .f32 0x7F800000#32
  let main_v45 : FVec F S128x2 .f32 := broadcastInDim S128x2 ![] bcast_S_S128x2 main_cst_16
  let main_v46 : IVec S128x2 1 := cmpf .olt main_v44 main_v45
  let main_c_17 : IVec S_ 1 := constantI S_ 1 1#1
  let main_v47 : IVec S_ 1 := (fun x v => Host.reduce IntOp.andi x v reducesTo_S128x2_S_d0_1 h_S_) main_v46 main_c_17
  let main_v48 : IVec S_ 1 := andi main_v43 main_v47
  let main_v49 : FVec F S2 .f32 := Host.absf main_arg12
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x2 .f32) (main_arg12 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x2 .f32) (main_arg12 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S2000x128 : Shape := ⟨2, ![2000, 128]⟩
abbrev S1700000x128 : Shape := ⟨2, ![1700000, 128]⟩
abbrev S1x128 : Shape := ⟨2, ![1, 128]⟩
abbrev S100000x1 : Shape := ⟨2, ![100000, 1]⟩
abbrev S128x1 : Shape := ⟨2, ![128, 1]⟩
abbrev S1x2 : Shape := ⟨2, ![1, 2]⟩

abbrev nBuf : Space → Nat
  | .hbm => 133
  | .vmem => 36
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x2, .f32⟩
  | 12 => ⟨S2, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S100000x128, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x128, .f32⟩
  | 67 => ⟨S1700000x1, .f32⟩
  | 68 => ⟨S1700000x128, .f32⟩
  | 69 => ⟨S1700000x128, .f32⟩
  | 70 => ⟨S_, .f32⟩
  | 71 => ⟨S100000x128, .f32⟩
  | 72 => ⟨S1700000x1, .i32⟩
  | 73 => ⟨S100000x128, .f32⟩
  | 74 => ⟨S1x128, .f32⟩
  | 75 => ⟨S100000x128, .f32⟩
  | 76 => ⟨S100000x128, .f32⟩
  | 77 => ⟨S_, .i32⟩
  | 78 => ⟨S1700000, .i32⟩
  | 79 => ⟨S1700000, .i1⟩
  | 80 => ⟨S_, .i32⟩
  | 81 => ⟨S1700000, .i32⟩
  | 82 => ⟨S1700000, .i32⟩
  | 83 => ⟨S1700000, .i32⟩
  | 84 => ⟨S1700000x1, .i32⟩
  | 85 => ⟨S1700000x128, .f32⟩
  | 86 => ⟨S1700000x1, .f32⟩
  | 87 => ⟨S1700000x128, .f32⟩
  | 88 => ⟨S1700000x128, .f32⟩
  | 89 => ⟨S_, .f32⟩
  | 90 => ⟨S100000x128, .f32⟩
  | 91 => ⟨S1700000x1, .i32⟩
  | 92 => ⟨S100000x128, .f32⟩
  | 93 => ⟨S1x128, .f32⟩
  | 94 => ⟨S100000x128, .f32⟩
  | 95 => ⟨S100000x128, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000x128, .f32⟩
  | 105 => ⟨S1700000x1, .f32⟩
  | 106 => ⟨S1700000x128, .f32⟩
  | 107 => ⟨S1700000x128, .f32⟩
  | 108 => ⟨S_, .f32⟩
  | 109 => ⟨S100000x128, .f32⟩
  | 110 => ⟨S1700000x1, .i32⟩
  | 111 => ⟨S100000x128, .f32⟩
  | 112 => ⟨S1x128, .f32⟩
  | 113 => ⟨S100000x128, .f32⟩
  | 114 => ⟨S_, .f32⟩
  | 115 => ⟨S128x128, .f32⟩
  | 116 => ⟨S100000x1, .i32⟩
  | 117 => ⟨S128x128, .f32⟩
  | 118 => ⟨S_, .f32⟩
  | 119 => ⟨S100000, .f32⟩
  | 120 => ⟨S_, .f32⟩
  | 121 => ⟨S128, .f32⟩
  | 122 => ⟨S100000x1, .i32⟩
  | 123 => ⟨S128, .f32⟩
  | 124 => ⟨S_, .f32⟩
  | 125 => ⟨S128, .f32⟩
  | 126 => ⟨S128, .f32⟩
  | 127 => ⟨S128x1, .f32⟩
  | _ => ⟨S100000x128, .f32⟩

abbrev hbmTy0_1 (i : Nat) : BufTy := match i % 128 with
  | 0 => ⟨S128x128, .f32⟩
  | 1 => ⟨S128x128, .f32⟩
  | 2 => ⟨S1x128, .f32⟩
  | 3 => ⟨S1x2, .f32⟩
  | 4 => ⟨S128x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S128x128, .f32⟩
  | .local _ .vmem, ⟨31, _⟩ => ⟨S128x128, .f32⟩
  | .local _ .vmem, ⟨32, _⟩ => ⟨S1x128, .f32⟩
  | .local _ .vmem, ⟨33, _⟩ => ⟨S128x2, .f32⟩
  | .local _ .vmem, ⟨34, _⟩ => ⟨S1x2, .f32⟩
  | .local _ .vmem, ⟨35, _⟩ => ⟨S128x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_c_6 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_c_8 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_10 : Ref sig .tc := ⟨.hbm, 77, rfl⟩
abbrev main_v50 : Ref sig .tc := ⟨.hbm, 78, rfl⟩
abbrev main_v51 : Ref sig .tc := ⟨.hbm, 79, rfl⟩
abbrev main_c_11 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_12 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_13 : Ref sig .tc := ⟨.hbm, 96, rfl⟩
abbrev main_v66 : Ref sig .tc := ⟨.hbm, 97, rfl⟩
abbrev main_v67 : Ref sig .tc := ⟨.hbm, 98, rfl⟩
abbrev main_c_14 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_15 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_16 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_17 : Ref sig .tc := ⟨.hbm, 118, rfl⟩
abbrev main_v84 : Ref sig .tc := ⟨.hbm, 119, rfl⟩
abbrev main_cst_18 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_19 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg3_0 : Ref sig .tc := ⟨.vmem, 33, rfl⟩
abbrev cc6_stg4_0 : Ref sig .tc := ⟨.vmem, 34, rfl⟩
abbrev cc6_stg5_0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem2_0 : DmaSem sig := 32
abbrev cc6_sem3_0 : DmaSem sig := 33
abbrev cc6_sem4_0 : DmaSem sig := 34
abbrev cc6_sem5_0 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S128x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x2 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x2 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x2 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S128x128 : S_.BroadcastsInDim S128x128 (![] : Fin 0 → Fin S128x128.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  shapeCasts_S2_S1x2 : S2.ShapeCasts S1x2
  shapeCasts_S128x128_S128x128 : S128x128.ShapeCasts S128x128
  broadcasts_S1x128_S128x128 : S1x128.Broadcasts S128x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S128x2 : S1x2.Broadcasts S128x2
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x128_S2000x128_1_0_0_1_n_n_wf : DotDims.WF S2000x128 S128x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S128x128_S100000x1_S100000x128_1_0_0_1_wf : ScatterDims.WF S128x128 S100000x1 S100000x128 [1] [0] [0] 1
  scatter_S128_S100000x1_S100000_n_0_0_1_wf : ScatterDims.WF S128 S100000x1 S100000 [] [0] [0] 1
  dot_S128x128_S128x128_S128x128_1_0_0_1_n_n_wf : DotDims.WF S128x128 S128x128 S128x128 [1] [0] [0] [1] [] []
  dot_S128x128_S128x2_S128x2_1_0_0_1_n_n_wf : DotDims.WF S128x128 S128x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S100000x128.size a
  hwx4_2 : ∀ i : grid4.Coords, EltTy.bits .f32 = 32 ∨ (Rect.block (s := S100000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S100000x128.size a
  hwx5_2 : ∀ i : grid5.Coords, EltTy.bits .f32 = 32 ∨ (Rect.block (s := S100000x128) S2000x128.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S128x128.size a ≤ S128x128.size a
  hwx6_0 : ∀ i : grid6.Coords, EltTy.bits .f32 = 32 ∨ (Rect.block (s := S128x128) S128x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x2.size a ≤ S128x2.size a
  hwx6_3 : ∀ i : grid6.Coords, EltTy.bits .f32 = 32 ∨ (Rect.block (s := S128x2) S128x2.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x2.size a ≤ S1x2.size a
  hwx6_4 : ∀ i : grid6.Coords, EltTy.bits .f32 = 32 ∨ (Rect.block (s := S1x2) S1x2.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x2.size a ≤ S128x2.size a
  hwx6_5 : ∀ i : grid6.Coords, EltTy.bits .f32 = 32 ∨ (Rect.block (s := S128x2) S128x2.size (cc6_transform_5 i) (hinb6_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v64) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v78) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v79) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v80) S2000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v92) S128x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v93) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg11) S128x2.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v94) S1x2.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v95) S128x2.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S128x1 : Shape := ⟨2, ![128, 1]⟩
abbrev S1x2 : Shape := ⟨2, ![1, 2]⟩

abbrev nBuf : Space → Nat
  | .hbm => 153
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x2, .f32⟩
  | 12 => ⟨S2, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S100000x128, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x128, .f32⟩
  | 67 => ⟨S1700000x1, .f32⟩
  | 68 => ⟨S1700000x128, .f32⟩
  | 69 => ⟨S1700000x128, .f32⟩
  | 70 => ⟨S_, .f32⟩
  | 71 => ⟨S100000x128, .f32⟩
  | 72 => ⟨S1700000x1, .i32⟩
  | 73 => ⟨S100000x128, .f32⟩
  | 74 => ⟨S1x128, .f32⟩
  | 75 => ⟨S100000x128, .f32⟩
  | 76 => ⟨S100000x128, .f32⟩
  | 77 => ⟨S_, .f32⟩
  | 78 => ⟨S100000x128, .f32⟩
  | 79 => ⟨S100000x128, .f32⟩
  | 80 => ⟨S100000x128, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1700000x128, .f32⟩
  | 90 => ⟨S1700000x1, .f32⟩
  | 91 => ⟨S1700000x128, .f32⟩
  | 92 => ⟨S1700000x128, .f32⟩
  | 93 => ⟨S_, .f32⟩
  | 94 => ⟨S100000x128, .f32⟩
  | 95 => ⟨S1700000x1, .i32⟩
  | 96 => ⟨S100000x128, .f32⟩
  | 97 => ⟨S1x128, .f32⟩
  | 98 => ⟨S100000x128, .f32⟩
  | 99 => ⟨S100000x128, .f32⟩
  | 100 => ⟨S_, .f32⟩
  | 101 => ⟨S100000x128, .f32⟩
  | 102 => ⟨S100000x128, .f32⟩
  | 103 => ⟨S100000x128, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000x128, .f32⟩
  | 113 => ⟨S1700000x1, .f32⟩
  | 114 => ⟨S1700000x128, .f32⟩
  | 115 => ⟨S1700000x128, .f32⟩
  | 116 => ⟨S_, .f32⟩
  | 117 => ⟨S100000x128, .f32⟩
  | 118 => ⟨S1700000x1, .i32⟩
  | 119 => ⟨S100000x128, .f32⟩
  | 120 => ⟨S1x128, .f32⟩
  | 121 => ⟨S100000x128, .f32⟩
  | 122 => ⟨S100000x128, .f32⟩
  | 123 => ⟨S_, .f32⟩
  | 124 => ⟨S100000x128, .f32⟩
  | 125 => ⟨S100000x128, .f32⟩
  | 126 => ⟨S_, .f32⟩
  | 127 => ⟨S128x128, .f32⟩
  | _ => ⟨S100000x128, .f32⟩

abbrev hbmTy0_1 (i : Nat) : BufTy := match i % 128 with
  | 0 => ⟨S100000x1, .i32⟩
  | 1 => ⟨S128x128, .f32⟩
  | 2 => ⟨S_, .f32⟩
  | 3 => ⟨S100000, .f32⟩
  | 4 => ⟨S_, .f32⟩
  | 5 => ⟨S128, .f32⟩
  | 6 => ⟨S100000x1, .i32⟩
  | 7 => ⟨S128, .f32⟩
  | 8 => ⟨S_, .f32⟩
  | 9 => ⟨S128, .f32⟩
  | 10 => ⟨S128, .f32⟩
  | 11 => ⟨S128x1, .f32⟩
  | 12 => ⟨S128x128, .f32⟩
  | 13 => ⟨S128x128, .f32⟩
  | 14 => ⟨S128x128, .f32⟩
  | 15 => ⟨S1x128, .f32⟩
  | 16 => ⟨S128x128, .f32⟩
  | 17 => ⟨S128x128, .f32⟩
  | 18 => ⟨S_, .f32⟩
  | 19 => ⟨S128x128, .f32⟩
  | 20 => ⟨S128x128, .f32⟩
  | 21 => ⟨S128x2, .f32⟩
  | 22 => ⟨S1x2, .f32⟩
  | 23 => ⟨S128x2, .f32⟩
  | 24 => ⟨S128x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_c_6 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_c_8 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_call1_cst : Ref sig .tc := ⟨.hbm, 77, rfl⟩
abbrev main_call1_v0 : Ref sig .tc := ⟨.hbm, 78, rfl⟩
abbrev main_v50 : Ref sig .tc := ⟨.hbm, 79, rfl⟩
abbrev main_v51 : Ref sig .tc := ⟨.hbm, 80, rfl⟩
abbrev main_c_10 : Ref sig .tc := ⟨.hbm, 81, rfl⟩
abbrev main_v52 : Ref sig .tc := ⟨.hbm, 82, rfl⟩
abbrev main_v53 : Ref sig .tc := ⟨.hbm, 83, rfl⟩
abbrev main_c_11 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_12 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_call2_cst : Ref sig .tc := ⟨.hbm, 100, rfl⟩
abbrev main_call2_v0 : Ref sig .tc := ⟨.hbm, 101, rfl⟩
abbrev main_v68 : Ref sig .tc := ⟨.hbm, 102, rfl⟩
abbrev main_v69 : Ref sig .tc := ⟨.hbm, 103, rfl⟩
abbrev main_c_13 : Ref sig .tc := ⟨.hbm, 104, rfl⟩
abbrev main_v70 : Ref sig .tc := ⟨.hbm, 105, rfl⟩
abbrev main_v71 : Ref sig .tc := ⟨.hbm, 106, rfl⟩
abbrev main_c_14 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_15 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_call3_cst : Ref sig .tc := ⟨.hbm, 123, rfl⟩
abbrev main_call3_v0 : Ref sig .tc := ⟨.hbm, 124, rfl⟩
abbrev main_v86 : Ref sig .tc := ⟨.hbm, 125, rfl⟩
abbrev main_cst_16 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_17 : Ref sig .tc := ⟨.hbm, 130, rfl⟩
abbrev main_v90 : Ref sig .tc := ⟨.hbm, 131, rfl⟩
abbrev main_cst_18 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_19 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_call4_cst : Ref sig .tc := ⟨.hbm, 146, rfl⟩
abbrev main_call4_v0 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128x128 : S_.BroadcastsInDim S128x128 (![] : Fin 0 → Fin S128x128.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S128x128_S100000x1_S100000x128_1_0_0_1_wf : ScatterDims.WF S128x128 S100000x1 S100000x128 [1] [0] [0] 1
  scatter_S128_S100000x1_S100000_n_0_0_1_wf : ScatterDims.WF S128 S100000x1 S100000 [] [0] [0] 1
  dot_S128x128_S128x128_S128x128_1_0_0_1_n_n_wf : DotDims.WF S128x128 S128x128 S128x128 [1] [0] [0] [1] [] []
  dot_S128x128_S128x2_S128x2_1_0_0_1_n_n_wf : DotDims.WF S128x128 S128x2 S128x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

class Facts : Prop extends Facts₀ where

variable [Facts]
-- ==== Proof.KRun.lean ====
/-
  The idealized kernel's run with its result named.

  The program is seven pipelined regions among stretches of host operations. Its run is the chain of those
  segments from the launch memory; every buffer outside the scoped ones ends at the last boundary's contents
  `W14`, the fold of the host stretches and of the regions' write-backs over the launch memory. The frame keeps
  of that only the argument arrays. Here the same chain is read once more with the result buffer kept as well:
  the result array ends at `W14` read at the result's reference, and the arguments end as launched.
-/
import proofs.«154634_j5025111736761_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes
-- unfolding plain definitions in a metavariable's type
set_option backward.isDefEq.respectTransparency.types false in
/-- Every weakly fair execution of the program terminates, nothing faulting; the result array ends at the last
    boundary's contents and every argument array as launched. -/
theorem run_value : θ_run defs (onTc (τ := τ) (main (F := F))) ⟨m, fun _ => 0, ρ⟩ (fun r => ∀ c : Dev nD,
      r.2.mem ((c.tc : Thread nD τ).loc main_v95) = W14 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v95 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c)⟩)

end Cert.KernelIdeal.ValueRun

end
-- ==== Proof.Keep.lean ====
/-
  Buffers no segment writes keep their contents from one segment boundary to a later one.

  Between the launch and the return the program crosses fourteen boundaries: a stretch of host operations writes only its
  own result buffers, and a region writes only its output array. So an argument array read at a later boundary holds its
  launch contents, and the three arrays the first host stretches compute once and every later stretch reads again (the
  source-node indices, the target-node indices and the per-edge normalisation) hold at each later reading what they held
  when first computed. One equation per buffer and pair of boundaries, each a walk back through the segments between.
-/
import proofs.«154634_j5025111736761_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem keep_arg0_3_0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem keep_arg3_3_0 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem keep_arg4_4_0 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem keep_arg5_6_0 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem keep_arg6_7_0 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem keep_arg7_9_0 (c : Dev nD) : W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem keep_arg8_10_0 (c : Dev nD) : W10 m ρ c (Proc.devRef .tc main_arg8) = m ((c : Thread nD τ).loc main_arg8) :=
  calc W10 m ρ c (Proc.devRef .tc main_arg8)
    _ = W9 m ρ c (Proc.devRef .tc main_arg8) := W10_of_ne m ρ c main_arg8 (by decide)
    _ = W8 m ρ c (Proc.devRef .tc main_arg8) := W9_of_ne m ρ c main_arg8 (by decide)
    _ = W7 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem keep_arg2_12_0 (c : Dev nD) : W12 m ρ c (Proc.devRef .tc main_arg2) = m ((c : Thread nD τ).loc main_arg2) :=
  calc W12 m ρ c (Proc.devRef .tc main_arg2)
    _ = W11 m ρ c (Proc.devRef .tc main_arg2) := W12_of_ne m ρ c main_arg2 (by decide)
    _ = W10 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg2) := W10_of_ne m ρ c main_arg2 (by decide)
    _ = W8 m ρ c (Proc.devRef .tc main_arg2) := W9_of_ne m ρ c main_arg2 (by decide)
    _ = W7 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem keep_arg10_12_0 (c : Dev nD) : W12 m ρ c (Proc.devRef .tc main_arg10) = m ((c : Thread nD τ).loc main_arg10) :=
  calc W12 m ρ c (Proc.devRef .tc main_arg10)
    _ = W11 m ρ c (Proc.devRef .tc main_arg10) := W12_of_ne m ρ c main_arg10 (by decide)
    _ = W10 m ρ c (Proc.devRef .tc main_arg10) := StableHlo.after_of_forall_not_mem (b := Proc.devRef .tc main_arg10) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg10) := W10_of_ne m ρ c main_arg10 (by decide)
    _ = W8 m ρ c (Proc.devRef .tc main_arg10) := W9_of_ne m ρ c main_arg10 (by decide)
    _ = W7 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem keep_arg12_12_0 (c : Dev nD) : W12 m ρ c (Proc.devRef .tc main_arg12) = m ((c : Thread nD τ).loc main_arg12) :=
  calc W12 m ρ c (Proc.devRef .tc main_arg12)
    _ = W11 m ρ c (Proc.devRef .tc main_arg12) := W12_of_ne m ρ c main_arg12 (by decide)
    _ = W10 m ρ c (Proc.devRef .tc main_arg12) := StableHlo.after_of_forall_not_mem (b := Proc.devRef .tc main_arg12) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg12) := W10_of_ne m ρ c main_arg12 (by decide)
    _ = W8 m ρ c (Proc.devRef .tc main_arg12) := W9_of_ne m ρ c main_arg12 (by decide)
    _ = W7 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg12) := W7_of_ne m ρ c main_arg12 (by decide)
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := StableHlo.after_of_forall_not_mem (b := Proc.devRef .tc main_arg12) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem keep_arg9_13_0 (c : Dev nD) : W13 m ρ c (Proc.devRef .tc main_arg9) = m ((c : Thread nD τ).loc main_arg9) :=
  calc W13 m ρ c (Proc.devRef .tc main_arg9)
    _ = W12 m ρ c (Proc.devRef .tc main_arg9) := StableHlo.after_of_forall_not_mem (b := Proc.devRef .tc main_arg9) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg9) := W12_of_ne m ρ c main_arg9 (by decide)
    _ = W10 m ρ c (Proc.devRef .tc main_arg9) := StableHlo.after_of_forall_not_mem (b := Proc.devRef .tc main_arg9) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg9) := W10_of_ne m ρ c main_arg9 (by decide)
    _ = W8 m ρ c (Proc.devRef .tc main_arg9) := W9_of_ne m ρ c main_arg9 (by decide)
    _ = W7 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem keep_arg11_13_0 (c : Dev nD) : W13 m ρ c (Proc.devRef .tc main_arg11) = m ((c : Thread nD τ).loc main_arg11) :=
  calc W13 m ρ c (Proc.devRef .tc main_arg11)
    _ = W12 m ρ c (Proc.devRef .tc main_arg11) := StableHlo.after_of_forall_not_mem (b := Proc.devRef .tc main_arg11) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg11) := W12_of_ne m ρ c main_arg11 (by decide)
    _ = W10 m ρ c (Proc.devRef .tc main_arg11) := StableHlo.after_of_forall_not_mem (b := Proc.devRef .tc main_arg11) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg11) := W10_of_ne m ρ c main_arg11 (by decide)
    _ = W8 m ρ c (Proc.devRef .tc main_arg11) := W9_of_ne m ρ c main_arg11 (by decide)
    _ = W7 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg11) := W7_of_ne m ρ c main_arg11 (by decide)
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := StableHlo.after_of_forall_not_mem (b := Proc.devRef .tc main_arg11) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem keep_v3_4_3 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

theorem keep_v3_7_4 (c : Dev nD) : W7 m ρ c (Proc.devRef .tc main_v3) = W4 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v3_10_7 (c : Dev nD) : W10 m ρ c (Proc.devRef .tc main_v3) = W7 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v6_4_3 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem keep_v6_7_4 (c : Dev nD) : W7 m ρ c (Proc.devRef .tc main_v6) = W4 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v6_10_7 (c : Dev nD) : W10 m ρ c (Proc.devRef .tc main_v6) = W7 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := StableHlo.after_of_forall_not_mem (b := Proc.devRef .tc main_v6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v32_4_3 (c : Dev nD) : W4 m ρ c (Proc.devRef .tc main_v32) = W3 m ρ c (Proc.devRef .tc main_v32) :=
  calc W4 m ρ c (Proc.devRef .tc main_v32)
    _ = W3 m ρ c (Proc.devRef .tc main_v32) := W4_of_ne m ρ c main_v32 (by decide)

theorem keep_v32_7_4 (c : Dev nD) : W7 m ρ c (Proc.devRef .tc main_v32) = W4 m ρ c (Proc.devRef .tc main_v32) :=
  calc W7 m ρ c (Proc.devRef .tc main_v32)
    _ = W6 m ρ c (Proc.devRef .tc main_v32) := W7_of_ne m ρ c main_v32 (by decide)
    _ = W5 m ρ c (Proc.devRef .tc main_v32) := W6_of_ne m ρ c main_v32 (by decide)
    _ = W4 m ρ c (Proc.devRef .tc main_v32) := StableHlo.after_of_forall_not_mem (b := Proc.devRef .tc main_v32) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v32_10_7 (c : Dev nD) : W10 m ρ c (Proc.devRef .tc main_v32) = W7 m ρ c (Proc.devRef .tc main_v32) :=
  calc W10 m ρ c (Proc.devRef .tc main_v32)
    _ = W9 m ρ c (Proc.devRef .tc main_v32) := W10_of_ne m ρ c main_v32 (by decide)
    _ = W8 m ρ c (Proc.devRef .tc main_v32) := W9_of_ne m ρ c main_v32 (by decide)
    _ = W7 m ρ c (Proc.devRef .tc main_v32) := StableHlo.after_of_forall_not_mem (b := Proc.devRef .tc main_v32) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Keep

end
-- ==== Proof.LibDense.lean ====
/-
  Dense layers on the extended reals, index by index.

  A matrix here is a function of a two-coordinate index into the extended reals.  `mm X W` is the
  textbook product: entry (r, j) is the sum over k of X (r, k) * W (k, j).  A matrix unit's product into a zero
  accumulator, read at an output index, is that sum (`matmul_zero_eq`), whatever the formats of the operands
  (a change of float format is the identity on the extended reals); the host's `dot_general` likewise
  (`dotGeneral_eq`).  `ssp` is the shifted softplus as the kernel spells it,
  max z 0 + log1p (exp (0 - |z - 0|)) - log 2 under a guard `z - 0 ≠ z - 0` that never fires on the
  extended reals, and `ssp_host` says that the host's spelling, with a negation in place of the subtraction
  from zero, is the same number.
-/
import Idealize.ShloMosaic.Lib.ValueIdx
import Idealize.ShloMosaic.Lib.Pipeline.Value
import Idealize.ShloMosaic.PureOps.Ideal.Laws

noncomputable section

namespace Cert.Dense

open Idealize.ShloMosaic Idealize.ShloMosaic.ValueIdx

/-- Entry (r, j) of the product of an [R, K] matrix and a [K, C] matrix: the sum over k of X (r, k) * W (k, j). -/
def mm {R K C : Nat} (X : (⟨2, ![R, K]⟩ : Shape).Idx → EReal) (W : (⟨2, ![K, C]⟩ : Shape).Idx → EReal) :
    (⟨2, ![R, C]⟩ : Shape).Idx → EReal :=
  fun i => ∑ k : Fin K, X (ix2 (i 0) k) * W (ix2 k (i 1))

/-- A product into the zero accumulator, with dimension numbers that contract the left operand's second axis
    with the right operand's first, is `mm` at every output index. -/
theorem matmul_zero_eq {R K C : Nat} {φ₁ φ₂ : FTy}
    (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (prec : Option ContractPrecision)
    (lhs : FVec Ideal ⟨2, ![R, K]⟩ φ₁) (rhs : FVec Ideal ⟨2, ![K, C]⟩ φ₂) (j : (⟨2, ![R, C]⟩ : Shape).Idx) :
    FloatOps.matmul D prec lhs rhs (constant ⟨2, ![R, C]⟩ .f32 0x00000000#32) j = mm lhs rhs j := by
  rw [Ideal.matmul_constant_zero_apply, ← Equiv.sum_comp (contrEquiv1 D K hr hs).symm]
  unfold mm
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  rw [el, er]
  rfl

/-- The host's product of the same operands is the same sum. -/
theorem dotGeneral_eq {R K C : Nat} {φ₁ φ₂ : FTy}
    (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (prec : Option ContractPrecision) (sched : HostSchedule)
    (lhs : FVec Ideal ⟨2, ![R, K]⟩ φ₁) (rhs : FVec Ideal ⟨2, ![K, C]⟩ φ₂) (j : (⟨2, ![R, C]⟩ : Shape).Idx) :
    FloatOps.dotGeneral D prec sched lhs rhs j = mm lhs rhs j := by
  rw [Ideal.dotGeneral_apply, ← Equiv.sum_comp (contrEquiv1 D K hr hs).symm]
  unfold mm
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  rw [el, er]
  rfl

/-- Two products agree at two entries when the left operands agree along the two rows and the right operands
    along the two columns. -/
theorem mm_congr {R R' K C C' : Nat} {X : (⟨2, ![R, K]⟩ : Shape).Idx → EReal} {X' : (⟨2, ![R', K]⟩ : Shape).Idx → EReal}
    {W : (⟨2, ![K, C]⟩ : Shape).Idx → EReal} {W' : (⟨2, ![K, C']⟩ : Shape).Idx → EReal}
    (i : (⟨2, ![R, C]⟩ : Shape).Idx) (i' : (⟨2, ![R', C']⟩ : Shape).Idx)
    (hX : ∀ k : Fin K, X (ix2 (i 0) k) = X' (ix2 (i' 0) k))
    (hW : ∀ k : Fin K, W (ix2 k (i 1)) = W' (ix2 k (i' 1))) : mm X W i = mm X' W' i' := by
  unfold mm
  exact Finset.sum_congr rfl fun k _ => by rw [hX k, hW k]

/-- The zero and the shift of the softplus, as the float words both programs spell. -/
abbrev z0 : EReal := Ideal.ofBits .f32 0x00000000#32
abbrev ln2 : EReal := Ideal.ofBits .f32 0x3F317218#32

/-- The shifted softplus of one extended real, in the kernel's spelling. -/
def ssp (z : EReal) : EReal :=
  Scalar.select (Ideal.cmp .one (z - z0) (z - z0)) (z + z0)
    (max z z0 + Ideal.log1p (Ideal.exp (z0 - max (z - z0) (-(z - z0))))) - ln2

/-- The host's spelling: the unordered comparison in the guard (the same comparison on a linear order) and a
    negation where the kernel subtracts from zero. -/
theorem ssp_host (z : EReal) :
    Scalar.select (Ideal.cmp .une (z - z0) (z - z0)) (z + z0)
      (max z z0 + Ideal.log1p (Ideal.exp (-(max (z - z0) (-(z - z0)))))) - ln2 = ssp z := by
  unfold ssp
  have h0 : ∀ a : EReal, z0 - a = -a := fun a => by
    show Ideal.ofBits .f32 0x00000000#32 - a = -a
    rw [Ideal.ofBits_zero_f32, zero_sub]
  rw [h0]
  rfl

/-! ## The layers of the interaction block, entry by entry

  A bias is kept as the [1, C] row both programs hand to the layer; the per-edge distance as an [E, 1] column. -/

/-- The cosine cutoff's constants, as the float words both programs spell: π/10 rounded to f32, one, one half. -/
abbrev kpi : EReal := Ideal.ofBits .f32 0x3EA0D97C#32
abbrev one : EReal := Ideal.ofBits .f32 0x3F800000#32
abbrev half : EReal := Ideal.ofBits .f32 0x3F000000#32

/-- A length-C vector as the [1, C] row a layer takes its bias as, and a length-E vector as an [E, 1] column. -/
def row {C : Nat} (b : (⟨1, ![C]⟩ : Shape).Idx → EReal) : (⟨2, ![1, C]⟩ : Shape).Idx → EReal := fun i => b (ix1 (i 1))
def col {E : Nat} (d : (⟨1, ![E]⟩ : Shape).Idx → EReal) : (⟨2, ![E, 1]⟩ : Shape).Idx → EReal := fun i => d (ix1 (i 0))

/-- A dense layer: entry (r, j) of X · W plus the bias row's entry j. -/
def lin {R K C : Nat} (X : (⟨2, ![R, K]⟩ : Shape).Idx → EReal) (W : (⟨2, ![K, C]⟩ : Shape).Idx → EReal)
    (B : (⟨2, ![1, C]⟩ : Shape).Idx → EReal) : (⟨2, ![R, C]⟩ : Shape).Idx → EReal :=
  fun i => mm X W i + B (ix2 (0 : Fin 1) (i 1))

/-- The cosine cutoff of row r's distance d: one half of (cos (d · π/10) + 1). -/
def cutoff {R : Nat} (D : (⟨2, ![R, 1]⟩ : Shape).Idx → EReal) (r : Fin R) : EReal :=
  half * (Ideal.cos (D (ix2 r (0 : Fin 1)) * kpi) + one)

/-- Two dense layers with the shifted softplus between them. -/
def mlp {R K C C' : Nat} (X : (⟨2, ![R, K]⟩ : Shape).Idx → EReal) (W1 : (⟨2, ![K, C]⟩ : Shape).Idx → EReal)
    (B1 : (⟨2, ![1, C]⟩ : Shape).Idx → EReal) (W2 : (⟨2, ![C, C']⟩ : Shape).Idx → EReal)
    (B2 : (⟨2, ![1, C']⟩ : Shape).Idx → EReal) : (⟨2, ![R, C']⟩ : Shape).Idx → EReal :=
  lin (fun i' => ssp (lin X W1 B1 i')) W2 B2

/-- The edge filter: the two-layer filter network of an edge's features, times the edge's cutoff. -/
def edgeFilter {E K C C' : Nat} (A : (⟨2, ![E, K]⟩ : Shape).Idx → EReal) (D : (⟨2, ![E, 1]⟩ : Shape).Idx → EReal)
    (W1 : (⟨2, ![K, C]⟩ : Shape).Idx → EReal) (B1 : (⟨2, ![1, C]⟩ : Shape).Idx → EReal)
    (W2 : (⟨2, ![C, C']⟩ : Shape).Idx → EReal) (B2 : (⟨2, ![1, C']⟩ : Shape).Idx → EReal) :
    (⟨2, ![E, C']⟩ : Shape).Idx → EReal :=
  fun i => mlp A W1 B1 W2 B2 i * cutoff D (i 0)

/-- Two dense layers agree at an entry when their inputs agree on the entry's row and their weights and biases
    on its column. -/
theorem lin_congr {R R' K C : Nat} {X : (⟨2, ![R, K]⟩ : Shape).Idx → EReal} {X' : (⟨2, ![R', K]⟩ : Shape).Idx → EReal}
    {W W' : (⟨2, ![K, C]⟩ : Shape).Idx → EReal} {B B' : (⟨2, ![1, C]⟩ : Shape).Idx → EReal}
    (i : (⟨2, ![R, C]⟩ : Shape).Idx) (i' : (⟨2, ![R', C]⟩ : Shape).Idx) (h1 : i 1 = i' 1)
    (hX : ∀ k : Fin K, X (ix2 (i 0) k) = X' (ix2 (i' 0) k)) (hW : W = W') (hB : B = B') :
    lin X W B i = lin X' W' B' i' := by
  subst hW hB
  unfold lin mm
  rw [h1]
  exact congrArg (· + B (ix2 (0 : Fin 1) (i' 1))) (Finset.sum_congr rfl fun k _ => by rw [hX k])

end Cert.Dense

end
-- ==== Proof.KDot.lean ====
/-
  The coordinates of the dimension records of the three matrix products the kernels perform (2000 x 128 by 128 x 128 in
  the dense regions; 128 x 128 by 128 x 128 and 128 x 128 by 128 x 2 in the last region): each contraction has one axis of
  extent 128; the left operand is read at (row, k) and the right at (k, column). Also the offset vector of a whole-block
  rectangle.
-/
import proofs.«154634_j5025111736761_1_alg».proof.Proof.Gen.KernelIdeal
import Idealize.ShloMosaic.Lib.ValueIdx
import Idealize.ShloMosaic.PureOps.Ideal.Laws

noncomputable section

namespace Cert.KernelIdeal.KDot

open Cert.KernelIdeal Idealize.ShloMosaic

theorem hz : (![0, 0] : Fin 2 → Nat) = fun _ => 0 := funext fun a => by fin_cases a <;> rfl

theorem kdot_l0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem kdot_l1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem kdot_r0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem kdot_r1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

theorem fdot1_l0 (i : S128x128.Idx) (q : dot_S128x128_S128x128_S128x128_1_0_0_1_n_n.contr.Idx) :
    (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
theorem fdot1_l1 (i : S128x128.Idx) (q : dot_S128x128_S128x128_S128x128_1_0_0_1_n_n.contr.Idx) :
    (dot_S128x128_S128x128_S128x128_1_0_0_1_n_n.lhsIdx i q 1).val = (q ⟨0, by decide⟩).val :=
  dot_S128x128_S128x128_S128x128_1_0_0_1_n_n.lhsIdx_val_of_single rfl i q
theorem fdot1_r0 (i : S128x128.Idx) (q : dot_S128x128_S128x128_S128x128_1_0_0_1_n_n.contr.Idx) :
    (dot_S128x128_S128x128_S128x128_1_0_0_1_n_n.rhsIdx i q 0).val = (q ⟨0, by decide⟩).val :=
  dot_S128x128_S128x128_S128x128_1_0_0_1_n_n.rhsIdx_val_of_single rfl i q
theorem fdot1_r1 (i : S128x128.Idx) (q : dot_S128x128_S128x128_S128x128_1_0_0_1_n_n.contr.Idx) :
    (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

theorem fdot2_l0 (i : S128x2.Idx) (q : dot_S128x128_S128x2_S128x2_1_0_0_1_n_n.contr.Idx) :
    (dot_S128x128_S128x2_S128x2_1_0_0_1_n_n.lhsIdx i q 0).val = (i 0).val := by
  unfold DotDims.lhsIdx
  rw [dif_neg (show ¬(0 : Fin S128x128.rank) ∈ dot_S128x128_S128x2_S128x2_1_0_0_1_n_n.lhsBatch by decide), dif_pos (show (0 : Fin S128x128.rank) ∈ dot_S128x128_S128x2_S128x2_1_0_0_1_n_n.lhsNonContracting by decide)]
  rfl
theorem fdot2_l1 (i : S128x2.Idx) (q : dot_S128x128_S128x2_S128x2_1_0_0_1_n_n.contr.Idx) :
    (dot_S128x128_S128x2_S128x2_1_0_0_1_n_n.lhsIdx i q 1).val = (q ⟨0, by decide⟩).val :=
  dot_S128x128_S128x2_S128x2_1_0_0_1_n_n.lhsIdx_val_of_single rfl i q
theorem fdot2_r0 (i : S128x2.Idx) (q : dot_S128x128_S128x2_S128x2_1_0_0_1_n_n.contr.Idx) :
    (dot_S128x128_S128x2_S128x2_1_0_0_1_n_n.rhsIdx i q 0).val = (q ⟨0, by decide⟩).val :=
  dot_S128x128_S128x2_S128x2_1_0_0_1_n_n.rhsIdx_val_of_single rfl i q
theorem fdot2_r1 (i : S128x2.Idx) (q : dot_S128x128_S128x2_S128x2_1_0_0_1_n_n.contr.Idx) :
    (dot_S128x128_S128x2_S128x2_1_0_0_1_n_n.rhsIdx i q 1).val = (i 1).val := by
  unfold DotDims.rhsIdx
  rw [dif_neg (show ¬(1 : Fin S128x2.rank) ∈ dot_S128x128_S128x2_S128x2_1_0_0_1_n_n.rhsBatch by decide), dif_pos (show (1 : Fin S128x2.rank) ∈ dot_S128x128_S128x2_S128x2_1_0_0_1_n_n.rhsNonContracting by decide)]
  rfl

end Cert.KernelIdeal.KDot

end
-- ==== Proof.Region0.lean ====
/-
  Region 0 of the program: one dense product, row block by row block.

  The grid has 50 points. Point t stages rows [2000 t, 2000 t + 2000) of the left operand, the whole 128 x 128 right
  operand, and writes back rows [2000 t, 2000 t + 2000) of the output. The body is one product of the staged blocks
  into a zero accumulator (the changes of float format on the way in are the identity on the extended reals), so
  an entry of the block is the textbook sum over the contracted axis. The fifty blocks tile the output array, so
  after the region the output array is the product of the two operand arrays as the region found them, entry by
  entry.
-/
import proofs.«154634_j5025111736761_1_alg».proof.Proof.Gen.KernelIdeal.Frame
import proofs.«154634_j5025111736761_1_alg».proof.Proof.LibDense
import proofs.«154634_j5025111736761_1_alg».proof.Proof.KDot
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Cert.KernelIdeal.KDot
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The body's stored value at an entry of the block: the sum over the contracted axis. -/
theorem pay_apply (x0 : Vec Ideal S2000x128 .f32) (x1 : Vec Ideal S128x128 .f32) (j : S2000x128.Idx) :
    k0_pay1 (F := Ideal) x0 x1 j = Cert.Dense.mm x0 x1 j := by
  unfold k0_pay1
  exact Cert.Dense.matmul_zero_eq (R := 2000) (K := 128) (C := 128) dot_S2000x128_S128x128_S2000x128_1_0_0_1_n_n rfl rfl
    kdot_l0 kdot_l1 kdot_r0 kdot_r1 none _ _ j

/-- The printed index maps, decided over the grid: the left operand's block moves with the output's along the rows,
    the right operand's block stays. -/
theorem idx_facts : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0 :=
  (by decide +kernel : ∀ t : Fin grid0.N, _)

/-- Every row block is some point's. -/
theorem idx_onto : ∀ q0 : Fin 50, ∃ t : Fin cfg0.N, win0_2.index t = ![q0.val, 0] :=
  (by decide +kernel : ∀ q0 : Fin 50, ∃ t : Fin grid0.N, win0_2.index t = ![q0.val, 0])

/-- What point t writes back is block t of the product of the operand arrays. -/
theorem flushed_eq (c : Dev nD) (t : Fin cfg0.N) :
    (dat0 (F := Ideal) V c).flushed 2 t
      = ((cfg0.win 2).blk t).view.read (Elt Ideal) (Cert.Dense.mm (R := 100000) (K := 128) (C := 128) (V c main_arg0) (V c main_arg3)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨e0, e1, e2, e3, e4⟩ := idx_facts t
  funext j
  show k0_pay1 (F := Ideal) (iblk0 V c 0 t) (iblk0 V c 1 t) j
    = Cert.Dense.mm (R := 100000) (K := 128) (C := 128) (V c main_arg0) (V c main_arg3) (((cfg0.win 2).blk t).view.emb j)
  refine (pay_apply (iblk0 V c 0 t) (iblk0 V c 1 t) j).trans ?_
  refine Cert.Dense.mm_congr (R := 2000) (R' := 100000) (K := 128) (C := 128) (C' := 128) j (((cfg0.win 2).blk t).view.emb j) (fun k => ?_) (fun k => ?_)
  · show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  · show V c main_arg3 (((cfg0.win 1).blk t).view.emb (ix2 k (j 1))) = V c main_arg3 (ix2 k ((((cfg0.win 2).blk t).view.emb j) 1))
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output array is in point t's block iff each coordinate is in the block's range on its axis. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v33).slice (win0_2.rect t)).set ↔ _
  rw [View.set_slice_whole, Rect.mem_set_unit]
  exact Iff.rfl

/-- Row r of the output is in the block of point r / 2000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After the region its output array is the product of the operand arrays as the region found them. -/
theorem final (c : Dev nD) :
    (dat0 (F := Ideal) V c).arrAt 2 cfg0.N = Cert.Dense.mm (R := 100000) (K := 128) (C := 128) (V c main_arg0) (V c main_arg3) :=
  (dat0 V c).arrAt_eq_of_cover 2 _ (fun t _ => flushed_eq V c t) cover

end Cert.KernelIdeal.Region0

end
-- ==== Proof.Spec.lean ====
/-
  The two layer shapes of the network beyond the plain product, entry by entry on the extended reals.

  `biasRelu a b` adds the bias row b (a [1, C] array) to every row of a and clamps at zero: entry (r, j) is
  max (a (r, j) + b (0, j)) 0. `ffn p W1 B1 W2 B2` is the two-layer head: a dense layer, the clamp at zero, a second dense
  layer; entry (g, c) is the sum over k of max (sum over j of p (g, j) W1 (j, k) + B1 (0, k)) 0 times W2 (k, c), plus B2 (0, c).
  The zero is kept as the float word both programs spell.
-/
import proofs.«154634_j5025111736761_1_alg».proof.Proof.LibDense

noncomputable section

namespace Cert.Gcn

open Idealize.ShloMosaic Idealize.ShloMosaic.ValueIdx Cert.Dense

/-- A bias row added to every row, clamped at zero. -/
def biasRelu {N C : Nat} (a : (⟨2, ![N, C]⟩ : Shape).Idx → EReal) (b : (⟨2, ![1, C]⟩ : Shape).Idx → EReal) :
    (⟨2, ![N, C]⟩ : Shape).Idx → EReal :=
  fun i => max (a i + b (ix2 (0 : Fin 1) (i 1))) z0

/-- A dense layer clamped at zero. -/
def hidden {R K C : Nat} (p : (⟨2, ![R, K]⟩ : Shape).Idx → EReal) (W1 : (⟨2, ![K, C]⟩ : Shape).Idx → EReal)
    (B1 : (⟨2, ![1, C]⟩ : Shape).Idx → EReal) : (⟨2, ![R, C]⟩ : Shape).Idx → EReal :=
  fun i => max (lin p W1 B1 i) z0

/-- The two-layer head. -/
def ffn {R K C C' : Nat} (p : (⟨2, ![R, K]⟩ : Shape).Idx → EReal) (W1 : (⟨2, ![K, C]⟩ : Shape).Idx → EReal)
    (B1 : (⟨2, ![1, C]⟩ : Shape).Idx → EReal) (W2 : (⟨2, ![C, C']⟩ : Shape).Idx → EReal)
    (B2 : (⟨2, ![1, C']⟩ : Shape).Idx → EReal) : (⟨2, ![R, C']⟩ : Shape).Idx → EReal :=
  lin (hidden p W1 B1) W2 B2

end Cert.Gcn

end
-- ==== Proof.Region1.lean ====
/-
  Region 1 of the program: a bias row added to every row, clamped at zero, row block by row block.

  The grid has 50 points. Point t stages rows [2000 t, 2000 t + 2000) of the aggregated array, the whole 1 x 128 bias row,
  and writes back rows [2000 t, 2000 t + 2000) of the output. The body adds the row to every row of the block and takes
  the maximum with zero, entry by entry. The fifty blocks tile the output array, so after the region the output array is
  that function of the two arrays as the region found them.
-/
import proofs.«154634_j5025111736761_1_alg».proof.Proof.Gen.KernelIdeal.Frame
import proofs.«154634_j5025111736761_1_alg».proof.Proof.Spec
import proofs.«154634_j5025111736761_1_alg».proof.Proof.KDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Cert.KernelIdeal.KDot
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The body's stored value at entry (p, q) of the block: the block's entry plus the row's entry q, clamped at zero. -/
theorem pay_apply (x0 : Vec Ideal S2000x128 .f32) (x1 : Vec Ideal S1x128 .f32) (p : Fin 2000) (q : Fin 128) :
    k1_pay1 (F := Ideal) x0 x1 (ix2 p q) = max (x0 (ix2 p q) + x1 (ix2 (0 : Fin 1) q)) Cert.Dense.z0 := by
  unfold k1_pay1
  rw [shapeCast_self x0, shapeCast_self x1]
  exact congrArg (fun z => max (x0 (ix2 p q) + z) Cert.Dense.z0) (broadcastTo_1b_ab_apply x1 _ p q)

/-- The printed index maps, decided over the grid: the aggregated array's block moves with the output's along the rows,
    the bias row stays. -/
theorem idx_facts : ∀ t : Fin cfg1.N, win1_0.index t (0 : Fin 2) = win1_2.index t (0 : Fin 2)
    ∧ win1_0.index t (1 : Fin 2) = 0 ∧ win1_2.index t (1 : Fin 2) = 0
    ∧ win1_1.index t (0 : Fin 2) = 0 ∧ win1_1.index t (1 : Fin 2) = 0 :=
  (by decide +kernel : ∀ t : Fin grid1.N, _)

/-- Every row block is some point's. -/
theorem idx_onto : ∀ q0 : Fin 50, ∃ t : Fin cfg1.N, win1_2.index t = ![q0.val, 0] :=
  (by decide +kernel : ∀ q0 : Fin 50, ∃ t : Fin grid1.N, win1_2.index t = ![q0.val, 0])

/-- What point t writes back is block t of the clamped sum of the two arrays. -/
theorem flushed_eq (c : Dev nD) (t : Fin cfg1.N) :
    (dat1 (F := Ideal) V c).flushed 2 t
      = ((cfg1.win 2).blk t).view.read (Elt Ideal) (Cert.Gcn.biasRelu (N := 100000) (C := 128) (V c main_v46) (V c main_v47)) := by
  show (cfg1.win 2).cut (grid1.coords t) ((dat1 V c).after 2 t) = _
  rw [after1_2]
  unfold out1_2
  rw [View.canon_unit_zero hz]
  simp only [View.ld_unit_zero (S := S2000x128) hz, View.ld_unit_zero (S := S1x128) hz]
  obtain ⟨e0, e1, e2, e3, e4⟩ := idx_facts t
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (ix2 p q)
    = Cert.Gcn.biasRelu (N := 100000) (C := 128) (V c main_v46) (V c main_v47) (((cfg1.win 2).blk t).view.emb (ix2 p q))
  refine (pay_apply (iblk1 V c 0 t) (iblk1 V c 1 t) p q).trans ?_
  unfold Cert.Gcn.biasRelu
  have hA : iblk1 V c 0 t (ix2 p q) = V c main_v46 (((cfg1.win 2).blk t).view.emb (ix2 p q)) := by
    show V c main_v46 (((cfg1.win 0).blk t).view.emb (ix2 p q)) = V c main_v46 (((cfg1.win 2).blk t).view.emb (ix2 p q))
    refine congrArg (V c main_v46) (funext fun a => Fin.ext ?_)
    match a with
    | ⟨0, _⟩ => show win1_0.index t (0 : Fin 2) * 2000 + 1 * p.val = win1_2.index t (0 : Fin 2) * 2000 + 1 * p.val; omega
    | ⟨1, _⟩ => show win1_0.index t (1 : Fin 2) * 128 + 1 * q.val = win1_2.index t (1 : Fin 2) * 128 + 1 * q.val; omega
  have hB : iblk1 V c 1 t (ix2 (0 : Fin 1) q)
      = V c main_v47 (ix2 (0 : Fin 1) ((((cfg1.win 2).blk t).view.emb (ix2 p q)) 1)) := by
    show V c main_v47 (((cfg1.win 1).blk t).view.emb (ix2 (0 : Fin 1) q)) = V c main_v47 (ix2 (0 : Fin 1) ((((cfg1.win 2).blk t).view.emb (ix2 p q)) 1))
    refine congrArg (V c main_v47) (funext fun a => Fin.ext ?_)
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [hA, hB]

/-- An index of the output array is in point t's block iff each coordinate is in the block's range on its axis. -/
theorem mem_blk (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v48).slice (win1_2.rect t)).set ↔ _
  rw [View.set_slice_whole, Rect.mem_set_unit]
  exact Iff.rfl

/-- Row r of the output is in the block of point r / 2000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- After the region its output array is the clamped sum of the two arrays as the region found them. -/
theorem final (c : Dev nD) :
    (dat1 (F := Ideal) V c).arrAt 2 cfg1.N = Cert.Gcn.biasRelu (N := 100000) (C := 128) (V c main_v46) (V c main_v47) :=
  (dat1 V c).arrAt_eq_of_cover 2 _ (fun t _ => flushed_eq V c t) cover

end Cert.KernelIdeal.Region1

end
-- ==== Proof.Region2.lean ====
/-
  Region 2 of the program: one dense product, row block by row block.

  The grid has 50 points. Point t stages rows [2000 t, 2000 t + 2000) of the left operand, the whole 128 x 128 right
  operand, and writes back rows [2000 t, 2000 t + 2000) of the output. The body is one product of the staged blocks
  into a zero accumulator (the changes of float format on the way in are the identity on the extended reals), so
  an entry of the block is the textbook sum over the contracted axis. The fifty blocks tile the output array, so
  after the region the output array is the product of the two operand arrays as the region found them, entry by
  entry.
-/
import proofs.«154634_j5025111736761_1_alg».proof.Proof.Gen.KernelIdeal.Frame
import proofs.«154634_j5025111736761_1_alg».proof.Proof.LibDense
import proofs.«154634_j5025111736761_1_alg».proof.Proof.KDot
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen Cert.KernelIdeal.KDot
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The body's stored value at an entry of the block: the sum over the contracted axis. -/
theorem pay_apply (x0 : Vec Ideal S2000x128 .f32) (x1 : Vec Ideal S128x128 .f32) (j : S2000x128.Idx) :
    k2_pay1 (F := Ideal) x0 x1 j = Cert.Dense.mm x0 x1 j := by
  unfold k2_pay1
  rw [shapeCast_self x0]
  exact Cert.Dense.matmul_zero_eq (R := 2000) (K := 128) (C := 128) dot_S2000x128_S128x128_S2000x128_1_0_0_1_n_n rfl rfl
    kdot_l0 kdot_l1 kdot_r0 kdot_r1 none _ _ j

/-- The printed index maps, decided over the grid: the left operand's block moves with the output's along the rows,
    the right operand's block stays. -/
theorem idx_facts : ∀ t : Fin cfg2.N, win2_0.index t (0 : Fin 2) = win2_2.index t (0 : Fin 2)
    ∧ win2_0.index t (1 : Fin 2) = 0 ∧ win2_2.index t (1 : Fin 2) = 0
    ∧ win2_1.index t (0 : Fin 2) = 0 ∧ win2_1.index t (1 : Fin 2) = 0 :=
  (by decide +kernel : ∀ t : Fin grid2.N, _)

/-- Every row block is some point's. -/
theorem idx_onto : ∀ q0 : Fin 50, ∃ t : Fin cfg2.N, win2_2.index t = ![q0.val, 0] :=
  (by decide +kernel : ∀ q0 : Fin 50, ∃ t : Fin grid2.N, win2_2.index t = ![q0.val, 0])

/-- What point t writes back is block t of the product of the operand arrays. -/
theorem flushed_eq (c : Dev nD) (t : Fin cfg2.N) :
    (dat2 (F := Ideal) V c).flushed 2 t
      = ((cfg2.win 2).blk t).view.read (Elt Ideal) (Cert.Dense.mm (R := 100000) (K := 128) (C := 128) (V c main_v48) (V c main_arg5)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x128) hz]
  obtain ⟨e0, e1, e2, e3, e4⟩ := idx_facts t
  funext j
  show k2_pay1 (F := Ideal) (iblk2 V c 0 t) (iblk2 V c 1 t) j
    = Cert.Dense.mm (R := 100000) (K := 128) (C := 128) (V c main_v48) (V c main_arg5) (((cfg2.win 2).blk t).view.emb j)
  refine (pay_apply (iblk2 V c 0 t) (iblk2 V c 1 t) j).trans ?_
  refine Cert.Dense.mm_congr (R := 2000) (R' := 100000) (K := 128) (C := 128) (C' := 128) j (((cfg2.win 2).blk t).view.emb j) (fun k => ?_) (fun k => ?_)
  · show V c main_v48 (((cfg2.win 0).blk t).view.emb (ix2 (j 0) k)) = V c main_v48 (ix2 ((((cfg2.win 2).blk t).view.emb j) 0) k)
    refine congrArg (V c main_v48) (funext fun a => Fin.ext ?_)
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * k.val = k.val; omega
  · show V c main_arg5 (((cfg2.win 1).blk t).view.emb (ix2 k (j 1))) = V c main_arg5 (ix2 k ((((cfg2.win 2).blk t).view.emb j) 1))
    refine congrArg (V c main_arg5) (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

/-- An index of the output array is in point t's block iff each coordinate is in the block's range on its axis. -/
theorem mem_blk (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v49).slice (win2_2.rect t)).set ↔ _
  rw [View.set_slice_whole, Rect.mem_set_unit]
  exact Iff.rfl

/-- Row r of the output is in the block of point r / 2000. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := idx_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- After the region its output array is the product of the operand arrays as the region found them. -/
theorem final (c : Dev nD) :
    (dat2 (F := Ideal) V c).arrAt 2 cfg2.N = Cert.Dense.mm (R := 100000) (K := 128) (C := 128) (V c main_v48) (V c main_arg5) :=
  (dat2 V c).arrAt_eq_of_cover 2 _ (fun t _ => flushed_eq V c t) cover

end Cert.KernelIdeal.Region2

end
-- ==== Proof.Region3.lean ====
/-
  Region 3 of the program: a bias row added to every row, clamped at zero, row block by row block.

  The grid has 50 points. Point t stages rows [2000 t, 2000 t + 2000) of the aggregated array, the whole 1 x 128 bias row,
  and writes back rows [2000 t, 2000 t + 2000) of the output. The body adds the row to every row of the block and takes
  the maximum with zero, entry by entry. The fifty blocks tile the output array, so after the region the output array is
  that function of the two arrays as the region found them.
-/
import proofs.«154634_j5025111736761_1_alg».proof.Proof.Gen.KernelIdeal.Frame
import proofs.«154634_j5025111736761_1_alg».proof.Proof.Spec
import proofs.«154634_j5025111736761_1_alg».proof.Proof.KDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Cert.KernelIdeal.KDot
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The body's stored value at entry (p, q) of the block: the block's entry plus the row's entry q, clamped at zero. -/
theorem pay_apply (x0 : Vec Ideal S2000x128 .f32) (x1 : Vec Ideal S1x128 .f32) (p : Fin 2000) (q : Fin 128) :
    k3_pay1 (F := Ideal) x0 x1 (ix2 p q) = max (x0 (ix2 p q) + x1 (ix2 (0 : Fin 1) q)) Cert.Dense.z0 := by
  unfold k3_pay1
  rw [shapeCast_self x0, shapeCast_self x1]
  exact congrArg (fun z => max (x0 (ix2 p q) + z) Cert.Dense.z0) (broadcastTo_1b_ab_apply x1 _ p q)

/-- The printed index maps, decided over the grid: the aggregated array's block moves with the output's along the rows,
    the bias row stays. -/
theorem idx_facts : ∀ t : Fin cfg3.N, win3_0.index t (0 : Fin 2) = win3_2.index t (0 : Fin 2)
    ∧ win3_0.index t (1 : Fin 2) = 0 ∧ win3_2.index t (1 : Fin 2) = 0
    ∧ win3_1.index t (0 : Fin 2) = 0 ∧ win3_1.index t (1 : Fin 2) = 0 :=
  (by decide +kernel : ∀ t : Fin grid3.N, _)

/-- Every row block is some point's. -/
theorem idx_onto : ∀ q0 : Fin 50, ∃ t : Fin cfg3.N, win3_2.index t = ![q0.val, 0] :=
  (by decide +kernel : ∀ q0 : Fin 50, ∃ t : Fin grid3.N, win3_2.index t = ![q0.val, 0])

/-- What point t writes back is block t of the clamped sum of the two arrays. -/
theorem flushed_eq (c : Dev nD) (t : Fin cfg3.N) :
    (dat3 (F := Ideal) V c).flushed 2 t
      = ((cfg3.win 2).blk t).view.read (Elt Ideal) (Cert.Gcn.biasRelu (N := 100000) (C := 128) (V c main_v62) (V c main_v63)) := by
  show (cfg3.win 2).cut (grid3.coords t) ((dat3 V c).after 2 t) = _
  rw [after3_2]
  unfold out3_2
  rw [View.canon_unit_zero hz]
  simp only [View.ld_unit_zero (S := S2000x128) hz, View.ld_unit_zero (S := S1x128) hz]
  obtain ⟨e0, e1, e2, e3, e4⟩ := idx_facts t
  funext j
  obtain ⟨p, q, rfl⟩ : ∃ (p : Fin 2000) (q : Fin 128), j = ix2 p q := ⟨j 0, j 1, eq_ix2 j⟩
  show k3_pay1 (F := Ideal) (iblk3 V c 0 t) (iblk3 V c 1 t) (ix2 p q)
    = Cert.Gcn.biasRelu (N := 100000) (C := 128) (V c main_v62) (V c main_v63) (((cfg3.win 2).blk t).view.emb (ix2 p q))
  refine (pay_apply (iblk3 V c 0 t) (iblk3 V c 1 t) p q).trans ?_
  unfold Cert.Gcn.biasRelu
  have hA : iblk3 V c 0 t (ix2 p q) = V c main_v62 (((cfg3.win 2).blk t).view.emb (ix2 p q)) := by
    show V c main_v62 (((cfg3.win 0).blk t).view.emb (ix2 p q)) = V c main_v62 (((cfg3.win 2).blk t).view.emb (ix2 p q))
    refine congrArg (V c main_v62) (funext fun a => Fin.ext ?_)
    match a with
    | ⟨0, _⟩ => show win3_0.index t (0 : Fin 2) * 2000 + 1 * p.val = win3_2.index t (0 : Fin 2) * 2000 + 1 * p.val; omega
    | ⟨1, _⟩ => show win3_0.index t (1 : Fin 2) * 128 + 1 * q.val = win3_2.index t (1 : Fin 2) * 128 + 1 * q.val; omega
  have hB : iblk3 V c 1 t (ix2 (0 : Fin 1) q)
      = V c main_v63 (ix2 (0 : Fin 1) ((((cfg3.win 2).blk t).view.emb (ix2 p q)) 1)) := by
    show V c main_v63 (((cfg3.win 1).blk t).view.emb (ix2 (0 : Fin 1) q)) = V c main_v63 (ix2 (0 : Fin 1) ((((cfg3.win 2).blk t).view.emb (ix2 p q)) 1))
    refine congrArg (V c main_v63) (funext fun a => Fin.ext ?_)
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega
  rw [hA, hB]

/-- An index of the output array is in point t's block iff each coordinate is in the block's range on its axis. -/
theorem mem_blk (t : Fin cfg3.N) (i : S100000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v64).slice (win3_2.rect t)).set ↔ _
  rw [View.set_slice_whole, Rect.mem_set_unit]
  exact Iff.rfl

/-- Row r of the output is in the block of point r / 2000. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := idx_onto ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

/-- After the region its output array is the clamped sum of the two arrays as the region found them. -/
theorem final (c : Dev nD) :
    (dat3 (F := Ideal) V c).arrAt 2 cfg3.N = Cert.Gcn.biasRelu (N := 100000) (C := 128) (V c main_v62) (V c main_v63) :=
  (dat3 V c).arrAt_eq_of_cover 2 _ (fun t _ => flushed_eq V c t) cover

end Cert.KernelIdeal.Region3

end
-- ==== Proof.Region4.lean ====
/-
  Region 4 of the program: one dense product, row block by row block.

  The grid has 50 points. Point t stages rows [2000 t, 2000 t + 2000) of the left operand, the whole 128 x 128 right
  operand, and writes back rows [2000 t, 2000 t + 2000) of the output. The body is one product of the staged blocks
  into a zero accumulator (the changes of float format on the way in are the identity on the extended reals), so
  an entry of the block is the textbook sum over the contracted axis. The fifty blocks tile the output array, so
  after the region the output array is the product of the two operand arrays as the region found them, entry by
  entry.
-/
import proofs.«154634_j5025111736761_1_alg».proof.Proof.Gen.KernelIdeal.Frame
import proofs.«154634_j5025111736761_1_alg».proof.Proof.LibDense
import proofs.«154634_j5025111736761_1_alg».proof.Proof.KDot
import Idealize.ShloMosaic.Lib.Pipeline.Value
import Idealize.ShloMosaic.Lib.ValueIdx
import Idealize.ShloMosaic.PureOps.Ideal.Laws

set_option maxRecDepth 16384

noncomputable section

namespace Cert.KernelIdeal.Region4

open Cert.KernelIdeal Cert.KernelIdeal.Gen Cert.KernelIdeal.KDot
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The body's stored value at an entry of the block: the sum over the contracted axis. -/
theorem pay_apply (x0 : Vec Ideal S2000x128 .f32) (x1 : Vec Ideal S128x128 .f32) (j : S2000x128.Idx) :
    k4_pay1 (F := Ideal) x0 x1 j = Cert.Dense.mm x0 x1 j := by
  unfold k4_pay1
  rw [shapeCast_self x0]
  exact Cert.Dense.matmul_zero_eq (R := 2000) (K := 128) (C := 128) dot_S2000x128_S128x128_S2000x128_1_0_0_1_n_n rfl rfl
    kdot_l0 kdot_l1 kdot_r0 kdot_r1 none _ _ j

/-- The printed index maps, decided over the grid: the left operand's block moves with the output's along the rows,
    the right operand's block stays. -/
theorem idx_facts : ∀ t : Fin cfg4.N, win4_0.index t (0 : Fin 2) = win4_2.index t (0 : Fin 2)
    ∧ win4_0.index t (1 : Fin 2) = 0 ∧ win4_2.index t (1 : Fin 2) = 0
    ∧ win4_1.index t (0 : Fin 2) = 0 ∧ win4_1.index t (1 : Fin 2) = 0 :=
  (by decide +kernel : ∀ t : Fin grid4.N, _)

/-- Every row block is some point's. -/
theorem idx_onto : ∀ q0 : Fin 50, ∃ t : Fin cfg4.N, win4_2.index t = ![q0.val, 0] :=
  (by decide +kernel : ∀ q0 : Fin 50, ∃ t : Fin grid4.N, win4_2.index t = ![q0.val, 0])

/-- What point t writes back is block t of the product of the operand arrays. -/
theorem flushed_eq (c : Dev nD) (t : Fin cfg4.N) :
    (dat4 (F := Ideal) V c).flushed 2 t
      = ((cfg4.win 2).blk t).view.read (Elt Ideal) (Cert.Dense.mm (R := 100000) (K := 128) (C := 128) (V c main_v64) (V c main_arg7)) := by
  show (cfg4.win 2).cut (grid4.coords t) ((dat4 V c).after 2 t) = _
  rw [after4_2]
  unfold out4_2
  rw [View.canon_unit_zero hz]
  simp only [View.ld_unit_zero (S := S2000x128) hz, View.ld_unit_zero (S := S128x128) hz]
  obtain ⟨e0, e1, e2, e3, e4⟩ := idx_facts t
  funext j
  show k4_pay1 (F := Ideal) (iblk4 V c 0 t) (iblk4 V c 1 t) j
    = Cert.Dense.mm (R := 100000) (K := 128) (C := 128) (V c main_v64) (V c main_arg7) (((cfg4.win 2).blk t).view.emb j)
  refine (pay_apply (iblk4 V c 0 t) (iblk4 V c 1 t) j).trans ?_
  refine Cert.Dense.mm_congr (R := 2000) (R' := 100000) (K := 128) (C := 128) (C' := 128) j (((cfg4.win 2).blk t).view.emb j) (fun k => ?_) (fun k => ?_)
  · show V c main_v64 (((cfg4.win 0).blk t).view.emb (ix2 (j 0) k)) = V c main_v64 (ix2 ((((cfg4.win 2).blk t).view.emb j) 0) k)
    refine congrArg (V c main_v64) (funext fun a => Fin.ext ?_)
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 128 + 1 * k.val = k.val; omega
  · show V c main_arg7 (((cfg4.win 1).blk t).view.emb (ix2 k (j 1))) = V c main_arg7 (ix2 k ((((cfg4.win 2).blk t).view.emb j) 1))
    refine congrArg (V c main_arg7) (funext fun a => Fin.ext ?_)
    match a with
    | ⟨0, _⟩ => show win4_1.index t (0 : Fin 2) * 128 + 1 * k.val = k.val; omega
    | ⟨1, _⟩ => show win4_1.index t (1 : Fin 2) * 128 + 1 * (j 1).val = win4_2.index t (1 : Fin 2) * 128 + 1 * (j 1).val; omega

/-- An index of the output array is in point t's block iff each coordinate is in the block's range on its axis. -/
theorem mem_blk (t : Fin cfg4.N) (i : S100000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole main_v65).slice (win4_2.rect t)).set ↔ _
  rw [View.set_slice_whole, Rect.mem_set_unit]
  exact Iff.rfl

/-- Row r of the output is in the block of point r / 2000. -/
theorem cover (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ := idx_onto ⟨(i 0).val / 2000, by omega⟩
  have q0 : win4_2.index t (0 : Fin 2) = (i 0).val / 2000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 128 ≤ (i 1).val ∧ (i 1).val < win4_2.index t (1 : Fin 2) * 128 + 128; omega

/-- After the region its output array is the product of the operand arrays as the region found them. -/
theorem final (c : Dev nD) :
    (dat4 (F := Ideal) V c).arrAt 2 cfg4.N = Cert.Dense.mm (R := 100000) (K := 128) (C := 128) (V c main_v64) (V c main_arg7) :=
  (dat4 V c).arrAt_eq_of_cover 2 _ (fun t _ => flushed_eq V c t) cover

end Cert.KernelIdeal.Region4

end
-- ==== Proof.Region5.lean ====
/-
  Region 5 of the program: a bias row added to every row, clamped at zero, row block by row block.

  The grid has 50 points. Point t stages rows [2000 t, 2000 t + 2000) of the aggregated array, the whole 1 x 128 bias row,
  and writes back rows [2000 t, 2000 t + 2000) of the output. The body adds the row to every row of the block and takes
  the maximum with zero, entry by entry. The fifty blocks tile the output array, so after the region the output array is
  that function of the two arrays as the region found them.
-/
import proofs.«154634_j5025111736761_1_alg».proof.Proof.Gen.KernelIdeal.Frame
import proofs.«154634_j5025111736761_1_alg».proof.Proof.Spec
import proofs.«154634_j5025111736761_1_alg».proof.Proof.KDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region5

open Cert.KernelIdeal Cert.KernelIdeal.Gen Cert.KernelIdeal.KDot
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The body's stored value at entry (p, q) of the block: the block's entry plus the row's entry q, clamped at zero. -/
theorem pay_apply (x0 : Vec Ideal S2000x128 .f32) (x1 : Vec Ideal S1x128 .f32) (p : Fin 2000) (q : Fin 128) :
    k5_pay1 (F := Ideal) x0 x1 (ix2 p q) = max (x0 (ix2 p q) + x1 (ix2 (0 : Fin 1) q)) Cert.Dense.z0 := by
  unfold k5_pay1
  rw [shapeCast_self x0, shapeCast_self x1]
  exact congrArg (fun z => max (x0 (ix2 p q) + z) Cert.Dense.z0) (broadcastTo_1b_ab_apply x1 _ p q)

/-- The printed index maps, decided over the grid: the aggregated array's block moves with the output's along the rows,
    the bias row stays. -/
theorem idx_facts : ∀ t : Fin cfg5.N, win5_0.index t (0 : Fin 2) = win5_2.index t (0 : Fin 2)
    ∧ win5_0.index t (1 : Fin 2) = 0 ∧ win5_2.index t (1 : Fin 2) = 0
    ∧ win5_1.index t (0 : Fin 2) = 0 ∧ win5_1.index t (1 : Fin 2) = 0 :=
  (by decide +kernel : ∀ t : Fin grid5.N, _)

/-- Every row block is some point's. -/
theorem idx_onto : ∀ q0 : Fin 50, ∃ t : Fin cfg5.N, win5_2.index t = ![q0.val, 0] :=
  (by decide +kernel : ∀ q0 : Fin 50, ∃ t : Fin grid5.N, win5_2.index t = ![q0.val, 0])

/-- What point t writes back is block t of the clamped sum of the two arrays. -/
theorem flushed_eq (c : Dev nD) (t : Fin cfg5.N) :
    (dat5 (F := Ideal) V c).flushed 2 t
      = ((cfg5.win 2).blk t).view.read (Elt Ideal) (Cert.Gcn.biasRelu (N := 100000) (C := 128) (V c main_v78) (V c main_v79)) := by
  show (cfg5.win 2).cut (grid5.coords t) ((dat5 V c).after 2 t) = _
  rw [after5_2]
  unfold out5_2
  rw [View.canon_unit_zero hz]
  simp only [View.ld_unit_zero (S := S2000x128) hz, View.ld_unit_zero (S := S1x128) hz]
  obtain ⟨e0, e1, e2, e3, e4⟩ := idx_facts t
  funext j
  obtain ⟨p, q, rfl⟩ : ∃ (p : Fin 2000) (q : Fin 128), j = ix2 p q := ⟨j 0, j 1, eq_ix2 j⟩
  show k5_pay1 (F := Ideal) (iblk5 V c 0 t) (iblk5 V c 1 t) (ix2 p q)
    = Cert.Gcn.biasRelu (N := 100000) (C := 128) (V c main_v78) (V c main_v79) (((cfg5.win 2).blk t).view.emb (ix2 p q))
  refine (pay_apply (iblk5 V c 0 t) (iblk5 V c 1 t) p q).trans ?_
  unfold Cert.Gcn.biasRelu
  have hA : iblk5 V c 0 t (ix2 p q) = V c main_v78 (((cfg5.win 2).blk t).view.emb (ix2 p q)) := by
    show V c main_v78 (((cfg5.win 0).blk t).view.emb (ix2 p q)) = V c main_v78 (((cfg5.win 2).blk t).view.emb (ix2 p q))
    refine congrArg (V c main_v78) (funext fun a => Fin.ext ?_)
    match a with
    | ⟨0, _⟩ => show win5_0.index t (0 : Fin 2) * 2000 + 1 * p.val = win5_2.index t (0 : Fin 2) * 2000 + 1 * p.val; omega
    | ⟨1, _⟩ => show win5_0.index t (1 : Fin 2) * 128 + 1 * q.val = win5_2.index t (1 : Fin 2) * 128 + 1 * q.val; omega
  have hB : iblk5 V c 1 t (ix2 (0 : Fin 1) q)
      = V c main_v79 (ix2 (0 : Fin 1) ((((cfg5.win 2).blk t).view.emb (ix2 p q)) 1)) := by
    show V c main_v79 (((cfg5.win 1).blk t).view.emb (ix2 (0 : Fin 1) q)) = V c main_v79 (ix2 (0 : Fin 1) ((((cfg5.win 2).blk t).view.emb (ix2 p q)) 1))
    refine congrArg (V c main_v79) (funext fun a => Fin.ext ?_)
    match a with
    | ⟨0, _⟩ => show win5_1.index t (0 : Fin 2) * 1 + 1 * 0 = 0; omega
    | ⟨1, _⟩ => show win5_1.index t (1 : Fin 2) * 128 + 1 * q.val = win5_2.index t (1 : Fin 2) * 128 + 1 * q.val; omega
  rw [hA, hB]

/-- An index of the output array is in point t's block iff each coordinate is in the block's range on its axis. -/
theorem mem_blk (t : Fin cfg5.N) (i : S100000x128.Idx) :
    i ∈ ((cfg5.win 2).blk t).view.set ↔ ∀ a : Fin 2, win5_2.index t a * S2000x128.size a ≤ (i a).val ∧ (i a).val < win5_2.index t a * S2000x128.size a + S2000x128.size a := by
  show i ∈ ((View.whole main_v80).slice (win5_2.rect t)).set ↔ _
  rw [View.set_slice_whole, Rect.mem_set_unit]
  exact Iff.rfl

/-- Row r of the output is in the block of point r / 2000. -/
theorem cover (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  obtain ⟨t, ht⟩ := idx_onto ⟨(i 0).val / 2000, by omega⟩
  have q0 : win5_2.index t (0 : Fin 2) = (i 0).val / 2000 := congrFun ht 0
  have q1 : win5_2.index t (1 : Fin 2) = 0 := congrFun ht 1
  refine ⟨t, flush5_2 t, ?_⟩
  rw [mem_blk]
  intro a
  match a with
  | ⟨0, _⟩ => show win5_2.index t (0 : Fin 2) * 2000 ≤ (i 0).val ∧ (i 0).val < win5_2.index t (0 : Fin 2) * 2000 + 2000; omega
  | ⟨1, _⟩ => show win5_2.index t (1 : Fin 2) * 128 ≤ (i 1).val ∧ (i 1).val < win5_2.index t (1 : Fin 2) * 128 + 128; omega

/-- After the region its output array is the clamped sum of the two arrays as the region found them. -/
theorem final (c : Dev nD) :
    (dat5 (F := Ideal) V c).arrAt 2 cfg5.N = Cert.Gcn.biasRelu (N := 100000) (C := 128) (V c main_v78) (V c main_v79) :=
  (dat5 V c).arrAt_eq_of_cover 2 _ (fun t _ => flushed_eq V c t) cover

end Cert.KernelIdeal.Region5

end
-- ==== Proof.Region6.lean ====
/-
  The last region of the program: the two-layer head on the pooled features, in one grid point.

  The one point stages the whole 128 x 128 pooled array, the two weight arrays and the two bias rows, and writes back the
  whole 128 x 2 output. The body is a product into a zero accumulator, the first bias row added to every row, the clamp at
  zero, a second product into a zero accumulator and the second bias row added (the changes of float format between them
  are the identity on the extended reals). So after the region the output array is the two-layer head of the five arrays
  as the region found them, entry by entry.
-/
import proofs.«154634_j5025111736761_1_alg».proof.Proof.Gen.KernelIdeal.Frame
import proofs.«154634_j5025111736761_1_alg».proof.Proof.Spec
import proofs.«154634_j5025111736761_1_alg».proof.Proof.KDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region6

open Cert.KernelIdeal Cert.KernelIdeal.Gen Cert.KernelIdeal.KDot
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The first layer at entry (p, k): the product's entry plus the bias row's entry k, clamped at zero. -/
theorem hidden_apply (x0 x1 : Vec Ideal S128x128 .f32) (x2 : Vec Ideal S1x128 .f32) (p k : Fin 128) :
    maximumf (addf (FloatOps.matmul dot_S128x128_S128x128_S128x128_1_0_0_1_n_n none (truncf .bf16 x0 bitsLt_bf16_f32) (truncf .bf16 x1 bitsLt_bf16_f32)
        (constant S128x128 .f32 0x00000000#32)) (broadcastTo S128x128 x2 broadcasts_S1x128_S128x128))
      (broadcast S128x128 (Scalar.ofBits (F := Ideal) .f32 0x00000000#32)) (ix2 p k)
    = Cert.Gcn.hidden (R := 128) (K := 128) (C := 128) x0 x1 x2 (ix2 p k) := by
  unfold Cert.Gcn.hidden Cert.Dense.lin
  refine congrArg₂ max (congrArg₂ (· + ·) ?_ (broadcastTo_1b_ab_apply x2 _ p k)) rfl
  exact Cert.Dense.matmul_zero_eq (R := 128) (K := 128) (C := 128) dot_S128x128_S128x128_S128x128_1_0_0_1_n_n rfl rfl
    fdot1_l0 fdot1_l1 fdot1_r0 fdot1_r1 none _ _ (ix2 p k)

/-- The body's stored value at entry (p, q): the two-layer head of the staged arrays. -/
theorem pay_apply (x0 x1 : Vec Ideal S128x128 .f32) (x2 : Vec Ideal S1x128 .f32) (x3 : Vec Ideal S128x2 .f32)
    (x4 : Vec Ideal S1x2 .f32) (p : Fin 128) (q : Fin 2) :
    k6_pay1 (F := Ideal) x0 x1 x2 x3 x4 (ix2 p q) = Cert.Gcn.ffn (R := 128) (K := 128) (C := 128) (C' := 2) x0 x1 x2 x3 x4 (ix2 p q) := by
  unfold k6_pay1
  rw [shapeCast_self x0, shapeCast_self x2, shapeCast_self x4]
  unfold Cert.Gcn.ffn Cert.Dense.lin
  refine congrArg₂ (· + ·) ?_ (broadcastTo_1b_ab_apply x4 _ p q)
  refine (Cert.Dense.matmul_zero_eq (R := 128) (K := 128) (C := 2) dot_S128x128_S128x2_S128x2_1_0_0_1_n_n rfl rfl
    fdot2_l0 fdot2_l1 fdot2_r0 fdot2_r1 none _ _ (ix2 p q)).trans ?_
  exact Cert.Dense.mm_congr (R := 128) (R' := 128) (K := 128) (C := 2) (C' := 2) (ix2 p q) (ix2 p q) (fun k => hidden_apply x0 x1 x2 p k) (fun k => rfl)

/-- The printed index maps at the one grid point: every block is the whole of its array. -/
theorem idx_facts : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- What the one point writes back is the two-layer head of the five arrays. -/
theorem flushed_eq (c : Dev nD) (t : Fin cfg6.N) :
    (dat6 (F := Ideal) V c).flushed 5 t
      = ((cfg6.win 5).blk t).view.read (Elt Ideal)
          (Cert.Gcn.ffn (R := 128) (K := 128) (C := 128) (C' := 2) (V c main_v92) (V c main_arg9) (V c main_v93) (V c main_arg11) (V c main_v94)) := by
  show (cfg6.win 5).cut (grid6.coords t) ((dat6 V c).after 5 t) = _
  rw [after6_5]
  unfold out6_5
  rw [View.canon_unit_zero hz]
  simp only [View.ld_unit_zero (S := S128x128) hz, View.ld_unit_zero (S := S1x128) hz, View.ld_unit_zero (S := S128x2) hz, View.ld_unit_zero (S := S1x2) hz]
  obtain ⟨a0, a1, b0, b1, c0, c1, d0, d1, e0, e1, f0, f1⟩ := idx_facts t
  have hblk0 : iblk6 V c 0 t = V c main_v92 := by
    funext y
    show V c main_v92 (((cfg6.win 0).blk t).view.emb y) = V c main_v92 y
    refine congrArg (V c main_v92) (funext fun a => Fin.ext ?_)
    match a with
    | ⟨0, _⟩ => show win6_0.index t (0 : Fin 2) * 128 + 1 * (y 0).val = (y 0).val; omega
    | ⟨1, _⟩ => show win6_0.index t (1 : Fin 2) * 128 + 1 * (y 1).val = (y 1).val; omega
  have hblk1 : iblk6 V c 1 t = V c main_arg9 := by
    funext y
    show V c main_arg9 (((cfg6.win 1).blk t).view.emb y) = V c main_arg9 y
    refine congrArg (V c main_arg9) (funext fun a => Fin.ext ?_)
    match a with
    | ⟨0, _⟩ => show win6_1.index t (0 : Fin 2) * 128 + 1 * (y 0).val = (y 0).val; omega
    | ⟨1, _⟩ => show win6_1.index t (1 : Fin 2) * 128 + 1 * (y 1).val = (y 1).val; omega
  have hblk2 : iblk6 V c 2 t = V c main_v93 := by
    funext y
    show V c main_v93 (((cfg6.win 2).blk t).view.emb y) = V c main_v93 y
    refine congrArg (V c main_v93) (funext fun a => Fin.ext ?_)
    match a with
    | ⟨0, _⟩ => show win6_2.index t (0 : Fin 2) * 1 + 1 * (y 0).val = (y 0).val; omega
    | ⟨1, _⟩ => show win6_2.index t (1 : Fin 2) * 128 + 1 * (y 1).val = (y 1).val; omega
  have hblk3 : iblk6 V c 3 t = V c main_arg11 := by
    funext y
    show V c main_arg11 (((cfg6.win 3).blk t).view.emb y) = V c main_arg11 y
    refine congrArg (V c main_arg11) (funext fun a => Fin.ext ?_)
    match a with
    | ⟨0, _⟩ => show win6_3.index t (0 : Fin 2) * 128 + 1 * (y 0).val = (y 0).val; omega
    | ⟨1, _⟩ => show win6_3.index t (1 : Fin 2) * 2 + 1 * (y 1).val = (y 1).val; omega
  have hblk4 : iblk6 V c 4 t = V c main_v94 := by
    funext y
    show V c main_v94 (((cfg6.win 4).blk t).view.emb y) = V c main_v94 y
    refine congrArg (V c main_v94) (funext fun a => Fin.ext ?_)
    match a with
    | ⟨0, _⟩ => show win6_4.index t (0 : Fin 2) * 1 + 1 * (y 0).val = (y 0).val; omega
    | ⟨1, _⟩ => show win6_4.index t (1 : Fin 2) * 2 + 1 * (y 1).val = (y 1).val; omega
  rw [hblk0, hblk1, hblk2, hblk3, hblk4]
  funext j
  obtain ⟨p, q, rfl⟩ : ∃ (p : Fin 128) (q : Fin 2), j = ix2 p q := ⟨j 0, j 1, eq_ix2 j⟩
  show k6_pay1 (F := Ideal) (V c main_v92) (V c main_arg9) (V c main_v93) (V c main_arg11) (V c main_v94) (ix2 p q)
    = Cert.Gcn.ffn (R := 128) (K := 128) (C := 128) (C' := 2) (V c main_v92) (V c main_arg9) (V c main_v93) (V c main_arg11) (V c main_v94) (((cfg6.win 5).blk t).view.emb (ix2 p q))
  refine (pay_apply _ _ _ _ _ p q).trans ?_
  refine congrArg (Cert.Gcn.ffn (R := 128) (K := 128) (C := 128) (C' := 2) (V c main_v92) (V c main_arg9) (V c main_v93) (V c main_arg11) (V c main_v94)) (funext fun a => Fin.ext ?_)
  match a with
  | ⟨0, _⟩ => show p.val = win6_5.index t (0 : Fin 2) * 128 + 1 * p.val; omega
  | ⟨1, _⟩ => show q.val = win6_5.index t (1 : Fin 2) * 2 + 1 * q.val; omega

/-- An index of the output array is in the one point's block. -/
theorem mem_blk (t : Fin cfg6.N) (i : S128x2.Idx) :
    i ∈ ((cfg6.win 5).blk t).view.set ↔ ∀ a : Fin 2, win6_5.index t a * S128x2.size a ≤ (i a).val ∧ (i a).val < win6_5.index t a * S128x2.size a + S128x2.size a := by
  show i ∈ ((View.whole main_v95).slice (win6_5.rect t)).set ↔ _
  rw [View.set_slice_whole, Rect.mem_set_unit]
  exact Iff.rfl

theorem cover (i : S128x2.Idx) :
    ∃ t : Fin cfg6.N, (cfg6.win 5).flush t = true ∧ i ∈ ((cfg6.win 5).blk t).view.set := by
  have hi0 : (i 0).val < 128 := (i 0).isLt
  have hi1 : (i 1).val < 2 := (i 1).isLt
  have hN : 0 < cfg6.N := by decide
  obtain ⟨a0, a1, b0, b1, c0, c1, d0, d1, e0, e1, f0, f1⟩ := idx_facts ⟨0, hN⟩
  refine ⟨⟨0, hN⟩, flush6_5 _, ?_⟩
  rw [mem_blk]
  intro a
  match a with
  | ⟨0, _⟩ => show win6_5.index ⟨0, hN⟩ (0 : Fin 2) * 128 ≤ (i 0).val ∧ (i 0).val < win6_5.index ⟨0, hN⟩ (0 : Fin 2) * 128 + 128; omega
  | ⟨1, _⟩ => show win6_5.index ⟨0, hN⟩ (1 : Fin 2) * 2 ≤ (i 1).val ∧ (i 1).val < win6_5.index ⟨0, hN⟩ (1 : Fin 2) * 2 + 2; omega

/-- After the region its output array is the two-layer head of the five arrays as the region found them. -/
theorem final (c : Dev nD) :
    (dat6 (F := Ideal) V c).arrAt 5 cfg6.N
      = Cert.Gcn.ffn (R := 128) (K := 128) (C := 128) (C' := 2) (V c main_v92) (V c main_arg9) (V c main_v93) (V c main_arg11) (V c main_v94) :=
  (dat6 V c).arrAt_eq_of_cover 5 _ (fun t _ => flushed_eq V c t) cover

end Cert.KernelIdeal.Region6

end
-- ==== Proof.RefStages.lean ====
/-
  The reference's layers, read as the same entry-by-entry functions the kernel's regions compute.

  The host's matrix product is the textbook sum. The host's bias step (the bias vector made a row, the row broadcast over
  the rows, added, then the maximum with a broadcast zero) is the clamped sum with the bias vector viewed as a 1 x C row.
  The host's two-layer head (product, bias, clamp at zero, product, bias) is the two-layer head with both bias vectors
  viewed as rows. With these, each stage of the reference that a kernel region replaces is that region's function of the
  stages before it.
-/
import proofs.«154634_j5025111736761_1_alg».proof.Proof.RefRead
import proofs.«154634_j5025111736761_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Stages

open Cert.ReferenceIdeal Cert.ReferenceIdeal.Gen Cert.ReferenceIdeal.ReadP
open Idealize.ShloMosaic Idealize.ShloMosaic.TcCoe Idealize.ShloMosaic.ValueIdx

/-- The host's product of an N x 128 array and a 128 x 128 array is the textbook sum at every entry. -/
theorem dot_big (A : FVec Ideal S100000x128 .f32) (W : FVec Ideal S128x128 .f32) :
    Host.dotGeneral (F := Ideal) dot_S100000x128_S128x128_S100000x128_1_0_0_1_n_n none A W
      = Cert.Dense.mm (R := 100000) (K := 128) (C := 128) A W := by
  funext j
  simp only [Host.dotGeneral]
  exact Cert.Dense.dotGeneral_eq (R := 100000) (K := 128) (C := 128) dot_S100000x128_S128x128_S100000x128_1_0_0_1_n_n rfl rfl
    lhs_main_v33_0 lhs_main_v33_1 rhs_main_v33_0 rhs_main_v33_1 none _ A W j

/-- A zero scalar broadcast to any shape reads the zero word everywhere. -/
theorem zero_bcast_big (i : S100000x128.Idx) :
    broadcastInDim S100000x128 ![] bcast_S_S100000x128 (constant (F := Ideal) S_ .f32 0x00000000#32) i = Cert.Dense.z0 :=
  broadcastInDim_apply _ bcast_S_S100000x128 (constant (F := Ideal) S_ .f32 0x00000000#32) i (fun a => a.elim0) (fun a => a.elim0)

/-- A bias vector made a row and broadcast over N rows reads, at (p, q), the vector at q. -/
theorem bias_bcast_big (b : FVec Ideal S128 .f32) (p : Fin 100000) (q : Fin 128) :
    broadcastInDim S100000x128 ![0, 1] bcast_S1x128_S100000x128_0_1 (broadcastInDim S1x128 ![1] bcast_S128_S1x128_1 b) (ix2 p q)
      = b (ix1 q) := by
  refine (broadcastInDim_apply _ bcast_S1x128_S100000x128_0_1 (broadcastInDim S1x128 ![1] bcast_S128_S1x128_1 b) (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

/-- The host's bias step and clamp at zero is the clamped sum with the bias vector viewed as a row. -/
theorem biasRelu_host (A : FVec Ideal S100000x128 .f32) (b : FVec Ideal S128 .f32)
    (h : (⟨1, ![128]⟩ : Shape).ShapeCasts ⟨2, ![1, 128]⟩) :
    maximumf (addf A (broadcastInDim S100000x128 ![0, 1] bcast_S1x128_S100000x128_0_1 (broadcastInDim S1x128 ![1] bcast_S128_S1x128_1 b)))
        (broadcastInDim S100000x128 ![] bcast_S_S100000x128 (constant (F := Ideal) S_ .f32 0x00000000#32))
      = Cert.Gcn.biasRelu (N := 100000) (C := 128) A (shapeCast ⟨2, ![1, 128]⟩ b h) := by
  funext i
  obtain ⟨p, q, rfl⟩ : ∃ (p : Fin 100000) (q : Fin 128), i = ix2 p q := ⟨i 0, i 1, eq_ix2 i⟩
  unfold Cert.Gcn.biasRelu
  show max (A (ix2 p q) + _) _ = max (A (ix2 p q) + _) _
  rw [bias_bcast_big b p q, zero_bcast_big (ix2 p q)]
  exact congrArg (fun z => max (A (ix2 p q) + z) Cert.Dense.z0) (shapeCast_a_1a_apply b h (0 : Fin 1) q).symm

/-! ## The two-layer head -/

/-- The host's product of two 128 x 128 arrays is the textbook sum at every entry. -/
theorem dot_small1 (A W : FVec Ideal S128x128 .f32) :
    Host.dotGeneral (F := Ideal) dot_S128x128_S128x128_S128x128_1_0_0_1_n_n none A W
      = Cert.Dense.mm (R := 128) (K := 128) (C := 128) A W := by
  funext j
  simp only [Host.dotGeneral]
  exact Cert.Dense.dotGeneral_eq (R := 128) (K := 128) (C := 128) dot_S128x128_S128x128_S128x128_1_0_0_1_n_n rfl rfl
    lhs_main_v99_0 lhs_main_v99_1 rhs_main_v99_0 rhs_main_v99_1 none _ A W j

/-- The host's product of a 128 x 128 array and a 128 x 2 array is the textbook sum at every entry. -/
theorem dot_small2 (A : FVec Ideal S128x128 .f32) (W : FVec Ideal S128x2 .f32) :
    Host.dotGeneral (F := Ideal) dot_S128x128_S128x2_S128x2_1_0_0_1_n_n none A W
      = Cert.Dense.mm (R := 128) (K := 128) (C := 2) A W := by
  funext j
  simp only [Host.dotGeneral]
  exact Cert.Dense.dotGeneral_eq (R := 128) (K := 128) (C := 2) dot_S128x128_S128x2_S128x2_1_0_0_1_n_n rfl rfl
    lhs_main_v104_0 lhs_main_v104_1 rhs_main_v104_0 rhs_main_v104_1 none _ A W j

theorem zero_bcast_small (i : S128x128.Idx) :
    broadcastInDim S128x128 ![] bcast_S_S128x128 (constant (F := Ideal) S_ .f32 0x00000000#32) i = Cert.Dense.z0 :=
  broadcastInDim_apply _ bcast_S_S128x128 (constant (F := Ideal) S_ .f32 0x00000000#32) i (fun a => a.elim0) (fun a => a.elim0)

theorem bias_bcast_small1 (b : FVec Ideal S128 .f32) (p : Fin 128) (q : Fin 128) :
    broadcastInDim S128x128 ![0, 1] bcast_S1x128_S128x128_0_1 (broadcastInDim S1x128 ![1] bcast_S128_S1x128_1 b) (ix2 p q)
      = b (ix1 q) := by
  refine (broadcastInDim_apply _ bcast_S1x128_S128x128_0_1 (broadcastInDim S1x128 ![1] bcast_S128_S1x128_1 b) (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

theorem bias_bcast_small2 (b : FVec Ideal S2 .f32) (p : Fin 128) (q : Fin 2) :
    broadcastInDim S128x2 ![0, 1] bcast_S1x2_S128x2_0_1 (broadcastInDim S1x2 ![1] bcast_S2_S1x2_1 b) (ix2 p q)
      = b (ix1 q) := by
  refine (broadcastInDim_apply _ bcast_S1x2_S128x2_0_1 (broadcastInDim S1x2 ![1] bcast_S2_S1x2_1 b) (ix2 p q) (ix2 (0 : Fin 1) q) (fun a => match a with
    | ⟨0, _⟩ => by show 0 = if (1 : Nat) = 1 then 0 else p.val; rw [if_pos rfl]
    | ⟨1, _⟩ => by show q.val = if (2 : Nat) = 1 then 0 else q.val; rw [if_neg (by decide)])).trans ?_
  exact broadcastInDim_apply _ bcast_S2_S1x2_1 b (ix2 (0 : Fin 1) q) (ix1 q) (fun a => match a with
    | ⟨0, _⟩ => by show q.val = if (2 : Nat) = 1 then 0 else q.val; rw [if_neg (by decide)])

/-- The host's first layer of the head: product, bias, clamp at zero. -/
theorem hidden_host (P W1 : FVec Ideal S128x128 .f32) (b1 : FVec Ideal S128 .f32)
    (h1 : (⟨1, ![128]⟩ : Shape).ShapeCasts ⟨2, ![1, 128]⟩) :
    maximumf (addf (Host.dotGeneral (F := Ideal) dot_S128x128_S128x128_S128x128_1_0_0_1_n_n none P W1)
          (broadcastInDim S128x128 ![0, 1] bcast_S1x128_S128x128_0_1 (broadcastInDim S1x128 ![1] bcast_S128_S1x128_1 b1)))
        (broadcastInDim S128x128 ![] bcast_S_S128x128 (constant (F := Ideal) S_ .f32 0x00000000#32))
      = Cert.Gcn.hidden (R := 128) (K := 128) (C := 128) P W1 (shapeCast ⟨2, ![1, 128]⟩ b1 h1) := by
  rw [dot_small1]
  funext i
  obtain ⟨p, q, rfl⟩ : ∃ (p : Fin 128) (q : Fin 128), i = ix2 p q := ⟨i 0, i 1, eq_ix2 i⟩
  unfold Cert.Gcn.hidden Cert.Dense.lin
  show max (Cert.Dense.mm (R := 128) (K := 128) (C := 128) P W1 (ix2 p q) + _) _ = max (Cert.Dense.mm (R := 128) (K := 128) (C := 128) P W1 (ix2 p q) + _) _
  rw [bias_bcast_small1 b1 p q, zero_bcast_small (ix2 p q)]
  exact congrArg (fun z => max (Cert.Dense.mm (R := 128) (K := 128) (C := 128) P W1 (ix2 p q) + z) Cert.Dense.z0) (shapeCast_a_1a_apply b1 h1 (0 : Fin 1) q).symm

/-- The host's two-layer head is the two-layer head with both bias vectors viewed as rows. -/
theorem ffn_host (P W1 : FVec Ideal S128x128 .f32) (b1 : FVec Ideal S128 .f32)
    (W2 : FVec Ideal S128x2 .f32) (b2 : FVec Ideal S2 .f32)
    (h1 : (⟨1, ![128]⟩ : Shape).ShapeCasts ⟨2, ![1, 128]⟩) (h2 : (⟨1, ![2]⟩ : Shape).ShapeCasts ⟨2, ![1, 2]⟩) :
    addf (Host.dotGeneral (F := Ideal) dot_S128x128_S128x2_S128x2_1_0_0_1_n_n none
          (maximumf (addf (Host.dotGeneral (F := Ideal) dot_S128x128_S128x128_S128x128_1_0_0_1_n_n none P W1)
              (broadcastInDim S128x128 ![0, 1] bcast_S1x128_S128x128_0_1 (broadcastInDim S1x128 ![1] bcast_S128_S1x128_1 b1)))
            (broadcastInDim S128x128 ![] bcast_S_S128x128 (constant (F := Ideal) S_ .f32 0x00000000#32))) W2)
        (broadcastInDim S128x2 ![0, 1] bcast_S1x2_S128x2_0_1 (broadcastInDim S1x2 ![1] bcast_S2_S1x2_1 b2))
      = Cert.Gcn.ffn (R := 128) (K := 128) (C := 128) (C' := 2) P W1 (shapeCast ⟨2, ![1, 128]⟩ b1 h1) W2 (shapeCast ⟨2, ![1, 2]⟩ b2 h2) := by
  rw [hidden_host P W1 b1 h1, dot_small2]
  funext i
  obtain ⟨p, q, rfl⟩ : ∃ (p : Fin 128) (q : Fin 2), i = ix2 p q := ⟨i 0, i 1, eq_ix2 i⟩
  unfold Cert.Gcn.ffn Cert.Dense.lin
  show Cert.Dense.mm (R := 128) (K := 128) (C := 2) _ W2 (ix2 p q) + _ = Cert.Dense.mm (R := 128) (K := 128) (C := 2) _ W2 (ix2 p q) + _
  rw [bias_bcast_small2 b2 p q]
  exact congrArg (fun z => Cert.Dense.mm (R := 128) (K := 128) (C := 2) _ W2 (ix2 p q) + z) (shapeCast_a_1a_apply b2 h2 (0 : Fin 1) q).symm

/-! ## The reference's stages that a kernel region replaces -/

section Stages

variable (x0 : FVec Ideal S100000x128 .f32) (x1 : (⟨S2x1600000, .i32⟩ : BufTy).Contents (Elt Ideal))
  (x2 : (⟨S100000, .i32⟩ : BufTy).Contents (Elt Ideal)) (x3 : FVec Ideal S128x128 .f32)
  (x4 : FVec Ideal S128 .f32) (x5 : FVec Ideal S128x128 .f32)
  (x6 : FVec Ideal S128 .f32) (x7 : FVec Ideal S128x128 .f32)
  (x8 : FVec Ideal S128 .f32) (x9 : FVec Ideal S128x128 .f32)
  (x10 : FVec Ideal S128 .f32) (x11 : FVec Ideal S128x2 .f32)
  (x12 : FVec Ideal S2 .f32)
  (h128 : (⟨1, ![128]⟩ : Shape).ShapeCasts ⟨2, ![1, 128]⟩) (h2 : (⟨1, ![2]⟩ : Shape).ShapeCasts ⟨2, ![1, 2]⟩)

theorem s33 : val_main_v33 (F := Ideal) x0 x3 = Cert.Dense.mm (R := 100000) (K := 128) (C := 128) x0 x3 := dot_big x0 x3

theorem s50 : val_main_v50 (F := Ideal) x0 x1 x3 x4
    = Cert.Gcn.biasRelu (N := 100000) (C := 128) (val_main_v46 (F := Ideal) x0 x1 x3) (shapeCast ⟨2, ![1, 128]⟩ x4 h128) :=
  biasRelu_host (val_main_v46 (F := Ideal) x0 x1 x3) x4 h128

theorem s51 : val_main_v51 (F := Ideal) x0 x1 x3 x4 x5
    = Cert.Dense.mm (R := 100000) (K := 128) (C := 128) (val_main_v50 (F := Ideal) x0 x1 x3 x4) x5 :=
  dot_big (val_main_v50 (F := Ideal) x0 x1 x3 x4) x5

theorem s68 : val_main_v68 (F := Ideal) x0 x1 x3 x4 x5 x6
    = Cert.Gcn.biasRelu (N := 100000) (C := 128) (val_main_v64 (F := Ideal) x0 x1 x3 x4 x5) (shapeCast ⟨2, ![1, 128]⟩ x6 h128) :=
  biasRelu_host (val_main_v64 (F := Ideal) x0 x1 x3 x4 x5) x6 h128

theorem s69 : val_main_v69 (F := Ideal) x0 x1 x3 x4 x5 x6 x7
    = Cert.Dense.mm (R := 100000) (K := 128) (C := 128) (val_main_v68 (F := Ideal) x0 x1 x3 x4 x5 x6) x7 :=
  dot_big (val_main_v68 (F := Ideal) x0 x1 x3 x4 x5 x6) x7

theorem s86 : val_main_v86 (F := Ideal) x0 x1 x3 x4 x5 x6 x7 x8
    = Cert.Gcn.biasRelu (N := 100000) (C := 128) (val_main_v82 (F := Ideal) x0 x1 x3 x4 x5 x6 x7) (shapeCast ⟨2, ![1, 128]⟩ x8 h128) :=
  biasRelu_host (val_main_v82 (F := Ideal) x0 x1 x3 x4 x5 x6 x7) x8 h128

theorem s107 : val_main_v107 (F := Ideal) x0 x1 x2 x3 x4 x5 x6 x7 x8 x9 x10 x11 x12
    = Cert.Gcn.ffn (R := 128) (K := 128) (C := 128) (C' := 2) (val_main_v98 (F := Ideal) x0 x1 x2 x3 x4 x5 x6 x7 x8) x9
        (shapeCast ⟨2, ![1, 128]⟩ x10 h128) x11 (shapeCast ⟨2, ![1, 2]⟩ x12 h2) :=
  ffn_host (val_main_v98 (F := Ideal) x0 x1 x2 x3 x4 x5 x6 x7 x8) x9 x10 x11 x12 h128 h2

end Stages

end Cert.ReferenceIdeal.Stages

end
-- ==== Proof.LibTypedRef.lean ====
/-
  Typed references of a module-local function's operations. An operation of an outlined function reads and writes its
  buffers through typed references: a result is transported to its buffer's type when written and back to the value's
  type when the next operation reads it. The two transports cancel, so a line of such operations composes to the
  plain composition of their functions.
-/
import Idealize.ShloMosaic.Lib.StableHlo

namespace Idealize.ShloMosaic.StableHlo.TRef

variable {sig : RefSig} {Val : EltTy → Type} {T : BufTy}

/-- Written to the buffer and read back: the value. -/
theorem ofBuf_toBuf (x : TRef sig T) (v : T.Contents Val) : x.ofBuf (x.toBuf v) = v := by
  obtain ⟨r, ty_eq, h1, h2⟩ := x
  subst ty_eq
  rfl

/-- Read from the buffer and written back: the contents. -/
theorem toBuf_ofBuf (x : TRef sig T) (v : x.ref.ty.Contents Val) : x.toBuf (x.ofBuf v) = v := by
  obtain ⟨r, ty_eq, h1, h2⟩ := x
  subst ty_eq
  rfl

end Idealize.ShloMosaic.StableHlo.TRef
-- ==== Proof.Chain.lean ====
/-
  The idealized kernel's result, boundary by boundary, against the reference's stages.

  Both programs compute, on the host, the source and target node of every edge (self loops appended), the per-edge
  normalisation, and, per layer, a gather of rows, a scaling and an accumulating scatter; then a pooling by graph. They
  differ only where the kernel launches a region: a dense product where the reference has a matrix product, a bias row
  added and clamped where the reference adds a broadcast bias and takes the maximum with zero, and the two-layer head.
  So the kernel's buffers at each boundary are the reference's stages of the same arguments: a host stretch is the same
  operations applied to equal operands, and a region's output array is the reference's stage by the region's value and
  the reference's reading of that stage.
-/
import proofs.«154634_j5025111736761_1_alg».proof.Proof.Gen.KernelIdeal.Frame
import proofs.«154634_j5025111736761_1_alg».proof.Proof.Keep
import proofs.«154634_j5025111736761_1_alg».proof.Proof.Region0
import proofs.«154634_j5025111736761_1_alg».proof.Proof.Region1
import proofs.«154634_j5025111736761_1_alg».proof.Proof.Region2
import proofs.«154634_j5025111736761_1_alg».proof.Proof.Region3
import proofs.«154634_j5025111736761_1_alg».proof.Proof.Region4
import proofs.«154634_j5025111736761_1_alg».proof.Proof.Region5
import proofs.«154634_j5025111736761_1_alg».proof.Proof.Region6
import proofs.«154634_j5025111736761_1_alg».proof.Proof.RefStages
import Idealize.ShloMosaic.Lib.StableHlo.Run
import proofs.«154634_j5025111736761_1_alg».proof.Proof.LibTypedRef

set_option maxRecDepth 16384

noncomputable section

namespace Cert.KernelIdeal.Chain

open Cert.KernelIdeal Cert.KernelIdeal.Gen Cert.KernelIdeal.Keep
open Cert.ReferenceIdeal.ReadP Cert.ReferenceIdeal.Stages
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The argument arrays, typed as the reference's stages take them -/

abbrev x0 : (⟨Cert.ReferenceIdeal.S100000x128, .f32⟩ : BufTy).Contents (Elt Ideal) := m ((c : Thread nD τ).loc main_arg0)
abbrev x1 : (⟨Cert.ReferenceIdeal.S2x1600000, .i32⟩ : BufTy).Contents (Elt Ideal) := m ((c : Thread nD τ).loc main_arg1)
abbrev x2 : (⟨Cert.ReferenceIdeal.S100000, .i32⟩ : BufTy).Contents (Elt Ideal) := m ((c : Thread nD τ).loc main_arg2)
abbrev x3 : (⟨Cert.ReferenceIdeal.S128x128, .f32⟩ : BufTy).Contents (Elt Ideal) := m ((c : Thread nD τ).loc main_arg3)
abbrev x4 : (⟨Cert.ReferenceIdeal.S128, .f32⟩ : BufTy).Contents (Elt Ideal) := m ((c : Thread nD τ).loc main_arg4)
abbrev x5 : (⟨Cert.ReferenceIdeal.S128x128, .f32⟩ : BufTy).Contents (Elt Ideal) := m ((c : Thread nD τ).loc main_arg5)
abbrev x6 : (⟨Cert.ReferenceIdeal.S128, .f32⟩ : BufTy).Contents (Elt Ideal) := m ((c : Thread nD τ).loc main_arg6)
abbrev x7 : (⟨Cert.ReferenceIdeal.S128x128, .f32⟩ : BufTy).Contents (Elt Ideal) := m ((c : Thread nD τ).loc main_arg7)
abbrev x8 : (⟨Cert.ReferenceIdeal.S128, .f32⟩ : BufTy).Contents (Elt Ideal) := m ((c : Thread nD τ).loc main_arg8)
abbrev x9 : (⟨Cert.ReferenceIdeal.S128x128, .f32⟩ : BufTy).Contents (Elt Ideal) := m ((c : Thread nD τ).loc main_arg9)
abbrev x10 : (⟨Cert.ReferenceIdeal.S128, .f32⟩ : BufTy).Contents (Elt Ideal) := m ((c : Thread nD τ).loc main_arg10)
abbrev x11 : (⟨Cert.ReferenceIdeal.S128x2, .f32⟩ : BufTy).Contents (Elt Ideal) := m ((c : Thread nD τ).loc main_arg11)
abbrev x12 : (⟨Cert.ReferenceIdeal.S2, .f32⟩ : BufTy).Contents (Elt Ideal) := m ((c : Thread nD τ).loc main_arg12)

/-! ## The first host stretches: the edges' endpoints and the normalisation -/

theorem a_v12 : W1 m ρ c (Proc.devRef .tc main_v12) = val_main_v12 (F := Ideal) (x1 m c) := by
  show StableHlo.after hostOps0 (W0 m ρ c) (Proc.devRef .tc main_v12) = _
  after_results_simp
  rfl

theorem a_v15 : W1 m ρ c (Proc.devRef .tc main_v15) = val_main_v15 (F := Ideal) (x1 m c) := by
  show StableHlo.after hostOps0 (W0 m ρ c) (Proc.devRef .tc main_v15) = _
  after_results_simp
  rfl

theorem a_cst3 : W1 m ρ c (Proc.devRef .tc main_cst_3) = val_main_cst_3 (F := Ideal) := by
  show StableHlo.after hostOps0 (W0 m ρ c) (Proc.devRef .tc main_cst_3) = _
  after_results_simp
  rfl

/-- The inverse square root of the degree, kept where the degree is positive: the outlined selection reads and writes
    its buffers through typed references, whose transports are the identity. -/
theorem b_v16 : W2 m ρ c (Proc.devRef .tc main_v16) = val_main_v16 (F := Ideal) (x1 m c) := by
  show StableHlo.after hostOps0_1 (W1 m ρ c) (Proc.devRef .tc main_v16) = _
  have h12 := a_v12 m ρ c
  have h15 := a_v15 m ρ c
  have hc := a_cst3 m ρ c
  generalize W1 m ρ c = V1 at h12 h15 hc ⊢
  after_results_simp
  simp only [TRef.ofBuf_toBuf]
  show select (V1 (Proc.devRef .tc main_v12)) (V1 (Proc.devRef .tc main_v15))
    (broadcastInDim S100000 ![] bcast_S_S100000 (id (V1 (Proc.devRef .tc main_cst_3)))) = _
  rw [h12, h15, hc]
  rfl

theorem b_v3 : W2 m ρ c (Proc.devRef .tc main_v3) = val_main_v3 (F := Ideal) (x1 m c) := by
  show StableHlo.after hostOps0_1 (StableHlo.after hostOps0 (W0 m ρ c)) (Proc.devRef .tc main_v3) = _
  after_results_simp
  rfl

theorem b_v6 : W2 m ρ c (Proc.devRef .tc main_v6) = val_main_v6 (F := Ideal) (x1 m c) := by
  show StableHlo.after hostOps0_1 (StableHlo.after hostOps0 (W0 m ρ c)) (Proc.devRef .tc main_v6) = _
  after_results_simp
  rfl

theorem b_v7 : W2 m ρ c (Proc.devRef .tc main_v7) = val_main_v7 (F := Ideal) := by
  show StableHlo.after hostOps0_1 (StableHlo.after hostOps0 (W0 m ρ c)) (Proc.devRef .tc main_v7) = _
  after_results_simp
  rfl

theorem s3_v3 : W3 m ρ c (Proc.devRef .tc main_v3) = val_main_v3 (F := Ideal) (x1 m c) := by
  show StableHlo.after hostOps0_2 (StableHlo.after hostOps0_1 (StableHlo.after hostOps0 (W0 m ρ c))) (Proc.devRef .tc main_v3) = _
  after_results_simp
  rfl

theorem s3_v6 : W3 m ρ c (Proc.devRef .tc main_v6) = val_main_v6 (F := Ideal) (x1 m c) := by
  show StableHlo.after hostOps0_2 (StableHlo.after hostOps0_1 (StableHlo.after hostOps0 (W0 m ρ c))) (Proc.devRef .tc main_v6) = _
  after_results_simp
  rfl

/-- The per-edge normalisation: the two gathers of the inverse square roots at the edges' endpoints, multiplied. -/
theorem s3_v32 : W3 m ρ c (Proc.devRef .tc main_v32) = val_main_v32 (F := Ideal) (x1 m c) := by
  show StableHlo.after hostOps0_2 (W2 m ρ c) (Proc.devRef .tc main_v32) = _
  have h16 := b_v16 m ρ c
  have h3 := b_v3 m ρ c
  have h6 := b_v6 m ρ c
  have h7 := b_v7 m ρ c
  generalize W2 m ρ c = V2 at h16 h3 h6 h7 ⊢
  after_results_simp
  rw [h16, h3, h6, h7]
  rfl

/-! ## Layer 1 -/

theorem k4_v3 : W4 m ρ c (Proc.devRef .tc main_v3) = val_main_v3 (F := Ideal) (x1 m c) := (keep_v3_4_3 m ρ c).trans (s3_v3 m ρ c)
theorem k4_v6 : W4 m ρ c (Proc.devRef .tc main_v6) = val_main_v6 (F := Ideal) (x1 m c) := (keep_v6_4_3 m ρ c).trans (s3_v6 m ρ c)
theorem k4_v32 : W4 m ρ c (Proc.devRef .tc main_v32) = val_main_v32 (F := Ideal) (x1 m c) := (keep_v32_4_3 m ρ c).trans (s3_v32 m ρ c)

/-- Region 0's output is the reference's first product. -/
theorem s4_v33 : W4 m ρ c (Proc.devRef .tc main_v33) = val_main_v33 (F := Ideal) (x0 m c) (x3 m c) :=
  ((W4_arr m ρ c 2).trans ((Region0.final (V3 m ρ) c).trans
    (congrArg₂ (Cert.Dense.mm (R := 100000) (K := 128) (C := 128)) (keep_arg0_3_0 m ρ c) (keep_arg3_3_0 m ρ c)))).trans
  (s33 (x0 m c) (x3 m c)).symm

/-- The gather, scaling and scatter after region 0 are the reference's, applied to equal operands. -/
theorem s5_v46 : W5 m ρ c (Proc.devRef .tc main_v46) = val_main_v46 (F := Ideal) (x0 m c) (x1 m c) (x3 m c) := by
  show StableHlo.after hostOps1 (W4 m ρ c) (Proc.devRef .tc main_v46) = _
  after_results_simp
  rw [s4_v33 m ρ c, k4_v3 m ρ c, k4_v6 m ρ c, k4_v32 m ρ c]
  rfl

theorem s5_v47 : W5 m ρ c (Proc.devRef .tc main_v47) = shapeCast S1x128 (x4 m c) shapeCasts_S128_S1x128 := by
  show StableHlo.after hostOps1 (W4 m ρ c) (Proc.devRef .tc main_v47) = _
  after_results_simp
  rw [keep_arg4_4_0 m ρ c]
  rfl

/-- Region 1's output is the reference's first layer. -/
theorem s6_v48 : W6 m ρ c (Proc.devRef .tc main_v48) = val_main_v50 (F := Ideal) (x0 m c) (x1 m c) (x3 m c) (x4 m c) :=
  ((W6_arr m ρ c 2).trans ((Region1.final (V5 m ρ) c).trans
    (congrArg₂ (Cert.Gcn.biasRelu (N := 100000) (C := 128)) (s5_v46 m ρ c) (s5_v47 m ρ c)))).trans
  (s50 (x0 m c) (x1 m c) (x3 m c) (x4 m c) shapeCasts_S128_S1x128).symm

/-! ## Layer 2 -/

theorem s7_v49 : W7 m ρ c (Proc.devRef .tc main_v49) = val_main_v51 (F := Ideal) (x0 m c) (x1 m c) (x3 m c) (x4 m c) (x5 m c) :=
  ((W7_arr m ρ c 2).trans ((Region2.final (V6 m ρ) c).trans
    (congrArg₂ (Cert.Dense.mm (R := 100000) (K := 128) (C := 128)) (s6_v48 m ρ c) (keep_arg5_6_0 m ρ c)))).trans
  (s51 (x0 m c) (x1 m c) (x3 m c) (x4 m c) (x5 m c)).symm

theorem k7_v3 : W7 m ρ c (Proc.devRef .tc main_v3) = val_main_v3 (F := Ideal) (x1 m c) := (keep_v3_7_4 m ρ c).trans (k4_v3 m ρ c)
theorem k7_v6 : W7 m ρ c (Proc.devRef .tc main_v6) = val_main_v6 (F := Ideal) (x1 m c) := (keep_v6_7_4 m ρ c).trans (k4_v6 m ρ c)
theorem k7_v32 : W7 m ρ c (Proc.devRef .tc main_v32) = val_main_v32 (F := Ideal) (x1 m c) := (keep_v32_7_4 m ρ c).trans (k4_v32 m ρ c)

theorem s8_v62 : W8 m ρ c (Proc.devRef .tc main_v62) = val_main_v64 (F := Ideal) (x0 m c) (x1 m c) (x3 m c) (x4 m c) (x5 m c) := by
  show StableHlo.after hostOps3 (W7 m ρ c) (Proc.devRef .tc main_v62) = _
  after_results_simp
  rw [s7_v49 m ρ c, k7_v3 m ρ c, k7_v6 m ρ c, k7_v32 m ρ c]
  rfl

theorem s8_v63 : W8 m ρ c (Proc.devRef .tc main_v63) = shapeCast S1x128 (x6 m c) shapeCasts_S128_S1x128 := by
  show StableHlo.after hostOps3 (W7 m ρ c) (Proc.devRef .tc main_v63) = _
  after_results_simp
  rw [keep_arg6_7_0 m ρ c]
  rfl

theorem s9_v64 : W9 m ρ c (Proc.devRef .tc main_v64) = val_main_v68 (F := Ideal) (x0 m c) (x1 m c) (x3 m c) (x4 m c) (x5 m c) (x6 m c) :=
  ((W9_arr m ρ c 2).trans ((Region3.final (V8 m ρ) c).trans
    (congrArg₂ (Cert.Gcn.biasRelu (N := 100000) (C := 128)) (s8_v62 m ρ c) (s8_v63 m ρ c)))).trans
  (s68 (x0 m c) (x1 m c) (x3 m c) (x4 m c) (x5 m c) (x6 m c) shapeCasts_S128_S1x128).symm

/-! ## Layer 3 -/

theorem s10_v65 : W10 m ρ c (Proc.devRef .tc main_v65) = val_main_v69 (F := Ideal) (x0 m c) (x1 m c) (x3 m c) (x4 m c) (x5 m c) (x6 m c) (x7 m c) :=
  ((W10_arr m ρ c 2).trans ((Region4.final (V9 m ρ) c).trans
    (congrArg₂ (Cert.Dense.mm (R := 100000) (K := 128) (C := 128)) (s9_v64 m ρ c) (keep_arg7_9_0 m ρ c)))).trans
  (s69 (x0 m c) (x1 m c) (x3 m c) (x4 m c) (x5 m c) (x6 m c) (x7 m c)).symm

theorem k10_v3 : W10 m ρ c (Proc.devRef .tc main_v3) = val_main_v3 (F := Ideal) (x1 m c) := (keep_v3_10_7 m ρ c).trans (k7_v3 m ρ c)
theorem k10_v6 : W10 m ρ c (Proc.devRef .tc main_v6) = val_main_v6 (F := Ideal) (x1 m c) := (keep_v6_10_7 m ρ c).trans (k7_v6 m ρ c)
theorem k10_v32 : W10 m ρ c (Proc.devRef .tc main_v32) = val_main_v32 (F := Ideal) (x1 m c) := (keep_v32_10_7 m ρ c).trans (k7_v32 m ρ c)

theorem s11_v78 : W11 m ρ c (Proc.devRef .tc main_v78) = val_main_v82 (F := Ideal) (x0 m c) (x1 m c) (x3 m c) (x4 m c) (x5 m c) (x6 m c) (x7 m c) := by
  show StableHlo.after hostOps5 (W10 m ρ c) (Proc.devRef .tc main_v78) = _
  after_results_simp
  rw [s10_v65 m ρ c, k10_v3 m ρ c, k10_v6 m ρ c, k10_v32 m ρ c]
  rfl

theorem s11_v79 : W11 m ρ c (Proc.devRef .tc main_v79) = shapeCast S1x128 (x8 m c) shapeCasts_S128_S1x128 := by
  show StableHlo.after hostOps5 (W10 m ρ c) (Proc.devRef .tc main_v79) = _
  after_results_simp
  rw [keep_arg8_10_0 m ρ c]
  rfl

theorem s12_v80 : W12 m ρ c (Proc.devRef .tc main_v80) = val_main_v86 (F := Ideal) (x0 m c) (x1 m c) (x3 m c) (x4 m c) (x5 m c) (x6 m c) (x7 m c) (x8 m c) :=
  ((W12_arr m ρ c 2).trans ((Region5.final (V11 m ρ) c).trans
    (congrArg₂ (Cert.Gcn.biasRelu (N := 100000) (C := 128)) (s11_v78 m ρ c) (s11_v79 m ρ c)))).trans
  (s86 (x0 m c) (x1 m c) (x3 m c) (x4 m c) (x5 m c) (x6 m c) (x7 m c) (x8 m c) shapeCasts_S128_S1x128).symm

/-! ## The pooling and the head -/

theorem s13_v92 : W13 m ρ c (Proc.devRef .tc main_v92) = val_main_v98 (F := Ideal) (x0 m c) (x1 m c) (x2 m c) (x3 m c) (x4 m c) (x5 m c) (x6 m c) (x7 m c) (x8 m c) := by
  show StableHlo.after hostOps6 (W12 m ρ c) (Proc.devRef .tc main_v92) = _
  after_results_simp
  rw [s12_v80 m ρ c, keep_arg2_12_0 m ρ c]
  rfl

theorem s13_v93 : W13 m ρ c (Proc.devRef .tc main_v93) = shapeCast S1x128 (x10 m c) shapeCasts_S128_S1x128 := by
  show StableHlo.after hostOps6 (W12 m ρ c) (Proc.devRef .tc main_v93) = _
  after_results_simp
  rw [keep_arg10_12_0 m ρ c]
  rfl

theorem s13_v94 : W13 m ρ c (Proc.devRef .tc main_v94) = shapeCast S1x2 (x12 m c) shapeCasts_S2_S1x2 := by
  show StableHlo.after hostOps6 (W12 m ρ c) (Proc.devRef .tc main_v94) = _
  after_results_simp
  rw [keep_arg12_12_0 m ρ c]
  rfl

/-- The last region's output, the program's result, is the reference's result stage. -/
theorem s14_v95 : W14 m ρ c (Proc.devRef .tc main_v95) = val_main_v107 (F := Ideal) (x0 m c) (x1 m c) (x2 m c) (x3 m c) (x4 m c) (x5 m c) (x6 m c) (x7 m c) (x8 m c) (x9 m c) (x10 m c) (x11 m c) (x12 m c) := by
  refine ((W14_arr m ρ c 5).trans ((Region6.final (V13 m ρ) c).trans ?_)).trans
    (s107 (x0 m c) (x1 m c) (x2 m c) (x3 m c) (x4 m c) (x5 m c) (x6 m c) (x7 m c) (x8 m c) (x9 m c) (x10 m c) (x11 m c) (x12 m c) shapeCasts_S128_S1x128 shapeCasts_S2_S1x2).symm
  show Cert.Gcn.ffn (R := 128) (K := 128) (C := 128) (C' := 2) (W13 m ρ c (Proc.devRef .tc main_v92)) (W13 m ρ c (Proc.devRef .tc main_arg9))
    (W13 m ρ c (Proc.devRef .tc main_v93)) (W13 m ρ c (Proc.devRef .tc main_arg11)) (W13 m ρ c (Proc.devRef .tc main_v94)) = _
  rw [s13_v92 m ρ c, keep_arg9_13_0 m ρ c, s13_v93 m ρ c, keep_arg11_13_0 m ρ c, s13_v94 m ρ c]

end Cert.KernelIdeal.Chain

end
-- ==== Proof.lean ====
/-
  A three-layer graph convolution network, mean-pooled by graph and fed to a two-layer head: the kernel against its
  reference, on the extended reals.

  Both programs build the edge list with self loops, the node degrees (an accumulating scatter of ones), the inverse
  square root of the degree where it is positive, and the per-edge normalisation, all with the same host operations.
  Each layer is  h ↦ max (S (h · W) + b, 0),  where S gathers the rows at the edges' sources, scales each by the edge's
  normalisation and accumulates them at the edges' targets. The kernel computes h · W in a pipelined region, fifty row
  blocks of 2000 rows, each a product into a zero accumulator (its casts to a narrower float format are the identity on
  the extended reals); S on the host, with the reference's operations; and the bias and clamp in a second pipelined
  region. The reference computes the same three steps on the host. The pooling (an accumulating scatter by graph index
  divided by the clamped count) is the same host operations in both, and the head  max (p · Wf1 + bf1, 0) · Wf2 + bf2  is
  one region of the kernel and five host operations of the reference.

  So the two results are the same function of the arguments, stage by stage: a product's entry is the same finite sum in
  both programs, a bias vector reshaped to a row is the same row as the vector broadcast to one, and everything else is
  the same operation applied to equal operands. No algebraic law beyond these readings is used, so the finiteness of the
  inputs is never opened.

  The frames of the two kernel programs are the generated ones; the reference's frame is its run with the result
  dropped; the idealization rewrote nothing, so its conjunct is trivial.
-/
import proofs.«154634_j5025111736761_1_alg».proof.Defs
import proofs.«154634_j5025111736761_1_alg».proof.Proof.Gen.Kernel
import proofs.«154634_j5025111736761_1_alg».proof.Proof.Gen.Kernel.Skeleton
import proofs.«154634_j5025111736761_1_alg».proof.Proof.Gen.Kernel.Launch
import proofs.«154634_j5025111736761_1_alg».proof.Proof.Gen.Kernel.Points
import proofs.«154634_j5025111736761_1_alg».proof.Proof.Gen.Kernel.Frame
import proofs.«154634_j5025111736761_1_alg».proof.Proof.Gen.KernelIdeal
import proofs.«154634_j5025111736761_1_alg».proof.Proof.Gen.KernelIdeal.Skeleton
import proofs.«154634_j5025111736761_1_alg».proof.Proof.Gen.KernelIdeal.Launch
import proofs.«154634_j5025111736761_1_alg».proof.Proof.Gen.KernelIdeal.Points
import proofs.«154634_j5025111736761_1_alg».proof.Proof.Gen.KernelIdeal.Frame
import proofs.«154634_j5025111736761_1_alg».proof.Proof.Gen.ReferenceIdeal
import proofs.«154634_j5025111736761_1_alg».proof.Proof.Gen.Pre_finite_inputs
import proofs.«154634_j5025111736761_1_alg».proof.Proof.RefRun
import proofs.«154634_j5025111736761_1_alg».proof.Proof.RefRead
import proofs.«154634_j5025111736761_1_alg».proof.Proof.KRun
import proofs.«154634_j5025111736761_1_alg».proof.Proof.Chain
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the reference's result stage of the (agreeing) arguments: the kernel's result array by the
    chain of its boundaries, the reference's by its run read stage by stage. -/
theorem algebraic : Cert.algebraic_KernelIdeal_ReferenceIdeal := by
  intro m ρ m' ρ' _ hagree
  refine ⟨fun c => Cert.ReferenceIdeal.ReadP.val_main_v107 (F := Ideal) (Cert.KernelIdeal.Chain.x0 m c) (Cert.KernelIdeal.Chain.x1 m c) (Cert.KernelIdeal.Chain.x2 m c) (Cert.KernelIdeal.Chain.x3 m c) (Cert.KernelIdeal.Chain.x4 m c) (Cert.KernelIdeal.Chain.x5 m c) (Cert.KernelIdeal.Chain.x6 m c) (Cert.KernelIdeal.Chain.x7 m c) (Cert.KernelIdeal.Chain.x8 m c) (Cert.KernelIdeal.Chain.x9 m c) (Cert.KernelIdeal.Chain.x10 m c) (Cert.KernelIdeal.Chain.x11 m c) (Cert.KernelIdeal.Chain.x12 m c), ?_, ?_⟩
  · exact (θ_run Cert.KernelIdeal.defs _ _).mono
      (fun r h c => ⟨(h c).1.trans (Cert.KernelIdeal.Chain.s14_v95 m ρ c), (h c).2⟩)
      (Cert.KernelIdeal.ValueRun.run_value (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v107_eq]
    obtain ⟨e0, e1, e2, e3, e4, e5, e6, e7, e8, e9, e10, e11, e12⟩ := hagree c
    rw [e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
